-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v70)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v70) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1250000 : Shape := ⟨2, ![2, 1250000]⟩
abbrev S40x64 : Shape := ⟨2, ![40, 64]⟩
abbrev S40 : Shape := ⟨1, ![40]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S40x64 : S_.BroadcastsInDim S40x64 (![] : Fin 0 → Fin S40x64.rank)
  reducesTo_S40x64_S_d0_1 : S40x64.ReducesTo [0, 1] S_
  bcast_S_S40 : S_.BroadcastsInDim S40 (![] : Fin 0 → Fin S40.rank)
  reducesTo_S40_S_d0 : S40.ReducesTo [0] S_

variable [Facts]

def fn {F : FTy → Type} [FloatOps F] (main_arg0 : FVec F S100000x64 .f32) (main_arg1 : IVec S2x1250000 32) (main_arg2 : FVec F S40x64 .f32) (main_arg3 : FVec F S40 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S40x64 .f32 := Host.absf main_arg2
  let main_cst_0 : FVec F S_ .f32 := constant S_ .f32 0x7F800000#32
  let main_v5 : FVec F S40x64 .f32 := broadcastInDim S40x64 ![] bcast_S_S40x64 main_cst_0
  let main_v6 : IVec S40x64 1 := cmpf .olt main_v4 main_v5
  let main_c_1 : IVec S_ 1 := constantI S_ 1 1#1
  let main_v7 : IVec S_ 1 := (fun x v => Host.reduce IntOp.andi x v reducesTo_S40x64_S_d0_1 h_S_) main_v6 main_c_1
  let main_v8 : IVec S_ 1 := andi main_v3 main_v7
  let main_v9 : FVec F S40 .f32 := Host.absf main_arg3
  let main_cst_2 : FVec F S_ .f32 := constant S_ .f32 0x7F800000#32
  let main_v10 : FVec F S40 .f32 := broadcastInDim S40 ![] bcast_S_S40 main_cst_2
  let main_v11 : IVec S40 1 := cmpf .olt main_v9 main_v10
  let main_c_3 : IVec S_ 1 := constantI S_ 1 1#1
  let main_v12 : IVec S_ 1 := (fun x v => Host.reduce IntOp.andi x v reducesTo_S40_S_d0 h_S_) main_v11 main_c_3
  let main_v13 : IVec S_ 1 := andi main_v8 main_v12
  main_v13
-- ==== Kernel.lean ====
abbrev S100000x64 : Shape := ⟨2, ![100000, 64]⟩
abbrev S2x1250000 : Shape := ⟨2, ![2, 1250000]⟩
abbrev S40x64 : Shape := ⟨2, ![40, 64]⟩
abbrev S40 : Shape := ⟨1, ![40]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S100000x40 : Shape := ⟨2, ![100000, 40]⟩
abbrev S10000x64 : Shape := ⟨2, ![10000, 64]⟩
abbrev S10000x40 : Shape := ⟨2, ![10000, 40]⟩
abbrev S1x40 : Shape := ⟨2, ![1, 40]⟩
abbrev S10000 : Shape := ⟨1, ![10000]⟩
abbrev S10000x1 : Shape := ⟨2, ![10000, 1]⟩

abbrev nBuf : Space → Nat
  | .hbm => 94
  | .vmem => 6
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S40x64, .f32⟩
  | .hbm, ⟨3, _⟩ => ⟨S40, .f32⟩
  | .hbm, ⟨4, _⟩ => ⟨S100000, .i32⟩
  | .hbm, ⟨5, _⟩ => ⟨S1x1250000, .i32⟩
  | .hbm, ⟨6, _⟩ => ⟨S1250000, .i32⟩
  | .hbm, ⟨7, _⟩ => ⟨S1350000, .i32⟩
  | .hbm, ⟨8, _⟩ => ⟨S1x1250000, .i32⟩
  | .hbm, ⟨9, _⟩ => ⟨S1250000, .i32⟩
  | .hbm, ⟨10, _⟩ => ⟨S1350000, .i32⟩
  | .hbm, ⟨11, _⟩ => ⟨S_, .f32⟩
  | .hbm, ⟨12, _⟩ => ⟨S1350000, .f32⟩
  | .hbm, ⟨13, _⟩ => ⟨S_, .f32⟩
  | .hbm, ⟨14, _⟩ => ⟨S100000, .f32⟩
  | .hbm, ⟨15, _⟩ => ⟨S1350000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1350000, .i32⟩
  | .hbm, ⟨27, _⟩ => ⟨S1350000, .i1⟩
  | .hbm, ⟨28, _⟩ => ⟨S_, .i32⟩
  | .hbm, ⟨29, _⟩ => ⟨S1350000, .i32⟩
  | .hbm, ⟨30, _⟩ => ⟨S1350000, .i32⟩
  | .hbm, ⟨31, _⟩ => ⟨S1350000, .i32⟩
  | .hbm, ⟨32, _⟩ => ⟨S1350000x1, .i32⟩
  | .hbm, ⟨33, _⟩ => ⟨S1350000, .f32⟩
  | .hbm, ⟨34, _⟩ => ⟨S1350000, .f32⟩
  | .hbm, ⟨35, _⟩ => ⟨S_, .i32⟩
  | .hbm, ⟨36, _⟩ => ⟨S1350000, .i32⟩
  | .hbm, ⟨37, _⟩ => ⟨S1350000, .i1⟩
  | .hbm, ⟨38, _⟩ => ⟨S_, .i32⟩
  | .hbm, ⟨39, _⟩ => ⟨S1350000, .i32⟩
  | .hbm, ⟨40, _⟩ => ⟨S1350000, .i32⟩
  | .hbm, ⟨41, _⟩ => ⟨S1350000, .i32⟩
  | .hbm, ⟨42, _⟩ => ⟨S1350000x1, .i32⟩
  | .hbm, ⟨43, _⟩ => ⟨S1350000, .f32⟩
  | .hbm, ⟨44, _⟩ => ⟨S1350000, .f32⟩
  | .hbm, ⟨45, _⟩ => ⟨S1350000x1, .f32⟩
  | .hbm, ⟨46, _⟩ => ⟨S_, .i32⟩
  | .hbm, ⟨47, _⟩ => ⟨S1350000, .i32⟩
  | .hbm, ⟨48, _⟩ => ⟨S1350000, .i1⟩
  | .hbm, ⟨49, _⟩ => ⟨S_, .i32⟩
  | .hbm, ⟨50, _⟩ => ⟨S1350000, .i32⟩
  | .hbm, ⟨51, _⟩ => ⟨S1350000, .i32⟩
  | .hbm, ⟨52, _⟩ => ⟨S1350000, .i32⟩
  | .hbm, ⟨53, _⟩ => ⟨S1350000x1, .i32⟩
  | .hbm, ⟨54, _⟩ => ⟨S1350000x64, .f32⟩
  | .hbm, ⟨55, _⟩ => ⟨S1350000x64, .f32⟩
  | .hbm, ⟨56, _⟩ => ⟨S1350000x64, .f32⟩
  | .hbm, ⟨57, _⟩ => ⟨S_, .f32⟩
  | .hbm, ⟨58, _⟩ => ⟨S100000x64, .f32⟩
  | .hbm, ⟨59, _⟩ => ⟨S1350000x1, .i32⟩
  | .hbm, ⟨60, _⟩ => ⟨S100000x64, .f32⟩
  | .hbm, ⟨61, _⟩ => ⟨S1350000x1, .f32⟩
  | .hbm, ⟨62, _⟩ => ⟨S_, .i32⟩
  | .hbm, ⟨63, _⟩ => ⟨S1350000, .i32⟩
  | .hbm, ⟨64, _⟩ => ⟨S1350000, .i1⟩
  | .hbm, ⟨65, _⟩ => ⟨S_, .i32⟩
  | .hbm, ⟨66, _⟩ => ⟨S1350000, .i32⟩
  | .hbm, ⟨67, _⟩ => ⟨S1350000, .i32⟩
  | .hbm, ⟨68, _⟩ => ⟨S1350000, .i32⟩
  | .hbm, ⟨69, _⟩ => ⟨S1350000x1, .i32⟩
  | .hbm, ⟨70, _⟩ => ⟨S1350000x64, .f32⟩
  | .hbm, ⟨71, _⟩ => ⟨S1350000x64, .f32⟩
  | .hbm, ⟨72, _⟩ => ⟨S1350000x64, .f32⟩
  | .hbm, ⟨73, _⟩ => ⟨S_, .f32⟩
  | .hbm, ⟨74, _⟩ => ⟨S100000x64, .f32⟩
  | .hbm, ⟨75, _⟩ => ⟨S1350000x1, .i32⟩
  | .hbm, ⟨76, _⟩ => ⟨S100000x64, .f32⟩
  | .hbm, ⟨77, _⟩ => ⟨S1350000x1, .f32⟩
  | .hbm, ⟨78, _⟩ => ⟨S_, .i32⟩
  | .hbm, ⟨79, _⟩ => ⟨S1350000, .i32⟩
  | .hbm, ⟨80, _⟩ => ⟨S1350000, .i1⟩
  | .hbm, ⟨81, _⟩ => ⟨S_, .i32⟩
  | .hbm, ⟨82, _⟩ => ⟨S1350000, .i32⟩
  | .hbm, ⟨83, _⟩ => ⟨S1350000, .i32⟩
  | .hbm, ⟨84, _⟩ => ⟨S1350000, .i32⟩
  | .hbm, ⟨85, _⟩ => ⟨S1350000x1, .i32⟩
  | .hbm, ⟨86, _⟩ => ⟨S1350000x64, .f32⟩
  | .hbm, ⟨87, _⟩ => ⟨S1350000x64, .f32⟩
  | .hbm, ⟨88, _⟩ => ⟨S1350000x64, .f32⟩
  | .hbm, ⟨89, _⟩ => ⟨S_, .f32⟩
  | .hbm, ⟨90, _⟩ => ⟨S100000x64, .f32⟩
  | .hbm, ⟨91, _⟩ => ⟨S1350000x1, .i32⟩
  | .hbm, ⟨92, _⟩ => ⟨S100000x64, .f32⟩
  | .hbm, ⟨93, _⟩ => ⟨S100000x40, .f32⟩
  | .local _ .vmem, ⟨0, _⟩ => ⟨S10000x64, .f32⟩
  | .local _ .vmem, ⟨1, _⟩ => ⟨S10000x64, .f32⟩
  | .local _ .vmem, ⟨2, _⟩ => ⟨S40x64, .f32⟩
  | .local _ .vmem, ⟨3, _⟩ => ⟨S40, .f32⟩
  | .local _ .vmem, ⟨4, _⟩ => ⟨S10000x40, .f32⟩
  | .local _ .vmem, ⟨5, _⟩ => ⟨S10000x40, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_c_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S40x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x40 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S40x64_S40x64_0_0 : ∀ a, (![0, 0] : Fin 2 → Nat) a + S40x64.size a ≤ S40x64.size a
  h_S40x64 : 0 < S40x64.numel
  inb_S40_S40_0 : ∀ a, (![0] : Fin 1 → Nat) a + S40.size a ≤ S40.size a
  h_S40 : 0 < S40.numel
  shapeCasts_S40_S1x40 : S40.ShapeCasts S1x40
  broadcasts_S1x40_S10000x40 : S1x40.Broadcasts S10000x40
  reduces_S10000x40_S10000 : S10000x40.Reduces [1] S10000
  shapeCasts_S10000_S10000x1 : S10000.ShapeCasts S10000x1
  broadcasts_S10000x1_S10000x40 : S10000x1.Broadcasts S10000x40
  inb_S10000x40_S10000x40_0_0 : ∀ a, (![0, 0] : Fin 2 → Nat) a + S10000x40.size a ≤ S10000x40.size a
  h_S10000x40 : 0 < S10000x40.numel
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S10000x64_S40x64_S10000x40_1_1_0_0_n_n_wf : DotDims.WF S10000x64 S40x64 S10000x40 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S40x64.size a ≤ S40x64.size a
  hwx0_1 : ∀ i : grid0.Coords, EltTy.bits .f32 = 32 ∨ (Rect.block (s := S40x64) S40x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S40.size a ≤ S40.size a
  hwx0_2 : ∀ i : grid0.Coords, EltTy.bits .f32 = 32 ∨ (Rect.block (s := S40) S40.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x40.size a ≤ S100000x40.size a
  hwx0_3 : ∀ i : grid0.Coords, EltTy.bits .f32 = 32 ∨ (Rect.block (s := S100000x40) S10000x40.size (cc0_transform_3 i) (hinb0_3 i)).WholeWords (EltTy.packing .f32)

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S10000x64_S40x64_S10000x40_1_1_0_0_n_n : DotDims S10000x64 S40x64 S10000x40 where
  lhsContracting := [1]
  rhsContracting := [1]
  lhsNonContracting := [0]
  rhsNonContracting := [0]
  lhsBatch := []
  rhsBatch := []
  wf := dot_S10000x64_S40x64_S10000x40_1_1_0_0_n_n_wf

abbrev win0_0 : Pipeline.Window sig grid0 :=
  Pipeline.Window.ofSpec (Memref.whole main_v69) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S40x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S40.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v70) S10000x40.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x1250000 : Shape := ⟨2, ![2, 1250000]⟩
abbrev S40x64 : Shape := ⟨2, ![40, 64]⟩
abbrev S40 : Shape := ⟨1, ![40]⟩
abbrev S100000 : Shape := ⟨1, ![100000]⟩
abbrev S1x1250000 : Shape := ⟨2, ![1, 1250000]⟩
abbrev S1250000 : Shape := ⟨1, ![1250000]⟩
abbrev S1350000 : Shape := ⟨1, ![1350000]⟩
abbrev S_ : Shape := ⟨0, ![]⟩
abbrev S1350000x1 : Shape := ⟨2, ![1350000, 1]⟩
abbrev S1350000x64 : Shape := ⟨2, ![1350000, 64]⟩
abbrev S64x40 : Shape := ⟨2, ![64, 40]⟩
abbrev S100000x40 : Shape := ⟨2, ![100000, 40]⟩
abbrev S1x40 : Shape := ⟨2, ![1, 40]⟩
abbrev S100000x1 : Shape := ⟨2, ![100000, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1250000, .i32⟩
  | .hbm, ⟨2, _⟩ => ⟨S40x64, .f32⟩
  | .hbm, ⟨3, _⟩ => ⟨S40, .f32⟩
  | .hbm, ⟨4, _⟩ => ⟨S100000, .i32⟩
  | .hbm, ⟨5, _⟩ => ⟨S1x1250000, .i32⟩
  | .hbm, ⟨6, _⟩ => ⟨S1250000, .i32⟩
  | .hbm, ⟨7, _⟩ => ⟨S1350000, .i32⟩
  | .hbm, ⟨8, _⟩ => ⟨S1x1250000, .i32⟩
  | .hbm, ⟨9, _⟩ => ⟨S1250000, .i32⟩
  | .hbm, ⟨10, _⟩ => ⟨S1350000, .i32⟩
  | .hbm, ⟨11, _⟩ => ⟨S_, .f32⟩
  | .hbm, ⟨12, _⟩ => ⟨S1350000, .f32⟩
  | .hbm, ⟨13, _⟩ => ⟨S_, .f32⟩
  | .hbm, ⟨14, _⟩ => ⟨S100000, .f32⟩
  | .hbm, ⟨15, _⟩ => ⟨S1350000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .i1⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .i32⟩
  | .hbm, ⟨26, _⟩ => ⟨S1350000, .i32⟩
  | .hbm, ⟨27, _⟩ => ⟨S1350000, .i1⟩
  | .hbm, ⟨28, _⟩ => ⟨S_, .i32⟩
  | .hbm, ⟨29, _⟩ => ⟨S1350000, .i32⟩
  | .hbm, ⟨30, _⟩ => ⟨S1350000, .i32⟩
  | .hbm, ⟨31, _⟩ => ⟨S1350000, .i32⟩
  | .hbm, ⟨32, _⟩ => ⟨S1350000x1, .i32⟩
  | .hbm, ⟨33, _⟩ => ⟨S1350000, .f32⟩
  | .hbm, ⟨34, _⟩ => ⟨S1350000, .f32⟩
  | .hbm, ⟨35, _⟩ => ⟨S_, .i32⟩
  | .hbm, ⟨36, _⟩ => ⟨S1350000, .i32⟩
  | .hbm, ⟨37, _⟩ => ⟨S1350000, .i1⟩
  | .hbm, ⟨38, _⟩ => ⟨S_, .i32⟩
  | .hbm, ⟨39, _⟩ => ⟨S1350000, .i32⟩
  | .hbm, ⟨40, _⟩ => ⟨S1350000, .i32⟩
  | .hbm, ⟨41, _⟩ => ⟨S1350000, .i32⟩
  | .hbm, ⟨42, _⟩ => ⟨S1350000x1, .i32⟩
  | .hbm, ⟨43, _⟩ => ⟨S1350000, .f32⟩
  | .hbm, ⟨44, _⟩ => ⟨S1350000, .f32⟩
  | .hbm, ⟨45, _⟩ => ⟨S1350000x1, .f32⟩
  | .hbm, ⟨46, _⟩ => ⟨S_, .i32⟩
  | .hbm, ⟨47, _⟩ => ⟨S1350000, .i32⟩
  | .hbm, ⟨48, _⟩ => ⟨S1350000, .i1⟩
  | .hbm, ⟨49, _⟩ => ⟨S_, .i32⟩
  | .hbm, ⟨50, _⟩ => ⟨S1350000, .i32⟩
  | .hbm, ⟨51, _⟩ => ⟨S1350000, .i32⟩
  | .hbm, ⟨52, _⟩ => ⟨S1350000, .i32⟩
  | .hbm, ⟨53, _⟩ => ⟨S1350000x1, .i32⟩
  | .hbm, ⟨54, _⟩ => ⟨S1350000x64, .f32⟩
  | .hbm, ⟨55, _⟩ => ⟨S1350000x64, .f32⟩
  | .hbm, ⟨56, _⟩ => ⟨S1350000x64, .f32⟩
  | .hbm, ⟨57, _⟩ => ⟨S_, .f32⟩
  | .hbm, ⟨58, _⟩ => ⟨S100000x64, .f32⟩
  | .hbm, ⟨59, _⟩ => ⟨S1350000x1, .i32⟩
  | .hbm, ⟨60, _⟩ => ⟨S100000x64, .f32⟩
  | .hbm, ⟨61, _⟩ => ⟨S1350000x1, .f32⟩
  | .hbm, ⟨62, _⟩ => ⟨S_, .i32⟩
  | .hbm, ⟨63, _⟩ => ⟨S1350000, .i32⟩
  | .hbm, ⟨64, _⟩ => ⟨S1350000, .i1⟩
  | .hbm, ⟨65, _⟩ => ⟨S_, .i32⟩
  | .hbm, ⟨66, _⟩ => ⟨S1350000, .i32⟩
  | .hbm, ⟨67, _⟩ => ⟨S1350000, .i32⟩
  | .hbm, ⟨68, _⟩ => ⟨S1350000, .i32⟩
  | .hbm, ⟨69, _⟩ => ⟨S1350000x1, .i32⟩
  | .hbm, ⟨70, _⟩ => ⟨S1350000x64, .f32⟩
  | .hbm, ⟨71, _⟩ => ⟨S1350000x64, .f32⟩
  | .hbm, ⟨72, _⟩ => ⟨S1350000x64, .f32⟩
  | .hbm, ⟨73, _⟩ => ⟨S_, .f32⟩
  | .hbm, ⟨74, _⟩ => ⟨S100000x64, .f32⟩
  | .hbm, ⟨75, _⟩ => ⟨S1350000x1, .i32⟩
  | .hbm, ⟨76, _⟩ => ⟨S100000x64, .f32⟩
  | .hbm, ⟨77, _⟩ => ⟨S1350000x1, .f32⟩
  | .hbm, ⟨78, _⟩ => ⟨S_, .i32⟩
  | .hbm, ⟨79, _⟩ => ⟨S1350000, .i32⟩
  | .hbm, ⟨80, _⟩ => ⟨S1350000, .i1⟩
  | .hbm, ⟨81, _⟩ => ⟨S_, .i32⟩
  | .hbm, ⟨82, _⟩ => ⟨S1350000, .i32⟩
  | .hbm, ⟨83, _⟩ => ⟨S1350000, .i32⟩
  | .hbm, ⟨84, _⟩ => ⟨S1350000, .i32⟩
  | .hbm, ⟨85, _⟩ => ⟨S1350000x1, .i32⟩
  | .hbm, ⟨86, _⟩ => ⟨S1350000x64, .f32⟩
  | .hbm, ⟨87, _⟩ => ⟨S1350000x64, .f32⟩
  | .hbm, ⟨88, _⟩ => ⟨S1350000x64, .f32⟩
  | .hbm, ⟨89, _⟩ => ⟨S_, .f32⟩
  | .hbm, ⟨90, _⟩ => ⟨S100000x64, .f32⟩
  | .hbm, ⟨91, _⟩ => ⟨S1350000x1, .i32⟩
  | .hbm, ⟨92, _⟩ => ⟨S100000x64, .f32⟩
  | .hbm, ⟨93, _⟩ => ⟨S64x40, .f32⟩
  | .hbm, ⟨94, _⟩ => ⟨S100000x40, .f32⟩
  | .hbm, ⟨95, _⟩ => ⟨S1x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x40, .f32⟩
  | .hbm, ⟨108, _⟩ => ⟨S100000x40, .f32⟩
  | .hbm, ⟨109, _⟩ => ⟨S100000x40, .f32⟩
  | .hbm, ⟨110, _⟩ => ⟨S_, .f32⟩
  | .hbm, ⟨111, _⟩ => ⟨S100000, .f32⟩
  | .hbm, ⟨112, _⟩ => ⟨S100000x1, .f32⟩
  | .hbm, ⟨113, _⟩ => ⟨S100000x1, .f32⟩
  | .hbm, ⟨114, _⟩ => ⟨S100000x40, .f32⟩
  | .hbm, ⟨115, _⟩ => ⟨S100000x40, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_call0_v0 : Ref sig .tc := ⟨.hbm, 22, rfl⟩
abbrev main_call0_v1 : Ref sig .tc := ⟨.hbm, 23, rfl⟩
abbrev main_v14 : Ref sig .tc := ⟨.hbm, 24, rfl⟩
abbrev main_c : Ref sig .tc := ⟨.hbm, 25, rfl⟩
abbrev main_v15 : Ref sig .tc := ⟨.hbm, 26, rfl⟩
abbrev main_v16 : Ref sig .tc := ⟨.hbm, 27, rfl⟩
abbrev main_c_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_4 : Ref sig .tc := ⟨.hbm, 35, rfl⟩
abbrev main_v23 : Ref sig .tc := ⟨.hbm, 36, rfl⟩
abbrev main_v24 : Ref sig .tc := ⟨.hbm, 37, rfl⟩
abbrev main_c_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_6 : Ref sig .tc := ⟨.hbm, 46, rfl⟩
abbrev main_v32 : Ref sig .tc := ⟨.hbm, 47, rfl⟩
abbrev main_v33 : Ref sig .tc := ⟨.hbm, 48, rfl⟩
abbrev main_c_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_9 : Ref sig .tc := ⟨.hbm, 62, rfl⟩
abbrev main_v45 : Ref sig .tc := ⟨.hbm, 63, rfl⟩
abbrev main_v46 : Ref sig .tc := ⟨.hbm, 64, rfl⟩
abbrev main_c_10 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_cst_11 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_c_12 : Ref sig .tc := ⟨.hbm, 78, rfl⟩
abbrev main_v58 : Ref sig .tc := ⟨.hbm, 79, rfl⟩
abbrev main_v59 : Ref sig .tc := ⟨.hbm, 80, rfl⟩
abbrev main_c_13 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_14 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_call1_cst : Ref sig .tc := ⟨.hbm, 98, rfl⟩
abbrev main_call1_v0 : Ref sig .tc := ⟨.hbm, 99, rfl⟩
abbrev main_v75 : Ref sig .tc := ⟨.hbm, 100, rfl⟩
abbrev main_call2_cst : Ref sig .tc := ⟨.hbm, 101, rfl⟩
abbrev main_call2_v0 : Ref sig .tc := ⟨.hbm, 102, rfl⟩
abbrev main_call2_cst_0 : Ref sig .tc := ⟨.hbm, 103, rfl⟩
abbrev main_call2_v1 : Ref sig .tc := ⟨.hbm, 104, rfl⟩
abbrev main_call2_v2 : Ref sig .tc := ⟨.hbm, 105, rfl⟩
abbrev main_call2_v3 : Ref sig .tc := ⟨.hbm, 106, rfl⟩
abbrev main_call2_v4 : Ref sig .tc := ⟨.hbm, 107, rfl⟩
abbrev main_call2_v5 : Ref sig .tc := ⟨.hbm, 108, rfl⟩
abbrev main_call2_v6 : Ref sig .tc := ⟨.hbm, 109, rfl⟩
abbrev main_call2_cst_1 : Ref sig .tc := ⟨.hbm, 110, rfl⟩
abbrev main_call2_v7 : Ref sig .tc := ⟨.hbm, 111, rfl⟩
abbrev main_call2_v8 : Ref sig .tc := ⟨.hbm, 112, rfl⟩
abbrev main_call2_v9 : Ref sig .tc := ⟨.hbm, 113, rfl⟩
abbrev main_call2_v10 : Ref sig .tc := ⟨.hbm, 114, rfl⟩
abbrev main_v76 : Ref sig .tc := ⟨.hbm, 115, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  concatenates_S1250000_S100000_S1350000_d0 : Shape.Concatenates [S1250000, S100000] S1350000 0
  slices_S2x1250000_S1x1250000_1_0 : S2x1250000.Slices ![1, 0] S1x1250000
  bcast_S_S1350000 : S_.BroadcastsInDim S1350000 (![] : Fin 0 → Fin S1350000.rank)
  bcast_S_S100000 : S_.BroadcastsInDim S100000 (![] : Fin 0 → Fin S100000.rank)
  bcast_S1350000_S1350000x1_0 : S1350000.BroadcastsInDim S1350000x1 (![0] : Fin 1 → Fin S1350000x1.rank)
  bcast_S1350000x1_S1350000x64_0_1 : S1350000x1.BroadcastsInDim S1350000x64 (![0, 1] : Fin 2 → Fin S1350000x64.rank)
  bcast_S_S100000x64 : S_.BroadcastsInDim S100000x64 (![] : Fin 0 → Fin S100000x64.rank)
  transposes_S40x64_S64x40_1_0 : S40x64.Transposes [1, 0] S64x40
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  bcast_S_S100000x40 : S_.BroadcastsInDim S100000x40 (![] : Fin 0 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S1350000x1_S1350000_n_0_0_1_wf : ScatterDims.WF S100000 S1350000x1 S1350000 [] [0] [0] 1
  gather_S100000_S1350000x1_S1350000_n_0_n_n_0_1_1_wf : GatherDims.WF S100000 S1350000x1 S1350000 [] [0] [] [0] [] 1 ![1]
  gather_S100000x64_S1350000x1_S1350000x64_1_0_n_n_0_1_164_wf : GatherDims.WF S100000x64 S1350000x1 S1350000x64 [1] [0] [] [0] [] 1 ![1, 64]
  scatter_S100000x64_S1350000x1_S1350000x64_1_0_0_1_wf : ScatterDims.WF S100000x64 S1350000x1 S1350000x64 [1] [0] [0] 1
  dot_S100000x64_S64x40_S100000x40_1_0_0_1_n_n_wf : DotDims.WF S100000x64 S64x40 S100000x40 [1] [0] [0] [1] [] []

variable [Facts₀]

def scatter_S100000_S1350000x1_S1350000_n_0_0_1 : ScatterDims S100000 S1350000x1 S1350000 where
  updateWindowDims := []
  insertedWindowDims := [0]
  scatterDimsToOperandDims := [0]
  indexVectorDim := 1
  wf := scatter_S100000_S1350000x1_S1350000_n_0_0_1_wf
def gather_S100000_S1350000x1_S1350000_n_0_n_n_0_1_1 : GatherDims S100000 S1350000x1 S1350000 where
  offsetDims := []
  collapsedSliceDims := [0]
  operandBatchingDims := []
  startIndicesBatchingDims := []
  startIndexMap := [0]
  indexVectorDim := 1
  sliceSizes := ![1]
  wf := gather_S100000_S1350000x1_S1350000_n_0_n_n_0_1_1_wf
def gather_S100000x64_S1350000x1_S1350000x64_1_0_n_n_0_1_164 : GatherDims S100000x64 S1350000x1 S1350000x64 where
  offsetDims := [1]
  collapsedSliceDims := [0]
  operandBatchingDims := []
  startIndicesBatchingDims := []
  startIndexMap := [0]
  indexVectorDim := 1
  sliceSizes := ![1, 64]
  wf := gather_S100000x64_S1350000x1_S1350000x64_1_0_n_n_0_1_164_wf
def scatter_S100000x64_S1350000x1_S1350000x64_1_0_0_1 : ScatterDims S100000x64 S1350000x1 S1350000x64 where
  updateWindowDims := [1]
  insertedWindowDims := [0]
  scatterDimsToOperandDims := [0]
  indexVectorDim := 1
  wf := scatter_S100000x64_S1350000x1_S1350000x64_1_0_0_1_wf
def dot_S100000x64_S64x40_S100000x40_1_0_0_1_n_n : DotDims S100000x64 S64x40 S100000x40 where
  lhsContracting := [1]
  rhsContracting := [0]
  lhsNonContracting := [0]
  rhsNonContracting := [1]
  lhsBatch := []
  rhsBatch := []
  wf := dot_S100000x64_S64x40_S100000x40_1_0_0_1_n_n_wf

class Facts : Prop extends Facts₀ where

variable [Facts]
-- ==== Proof.RefOps.lean ====
/-
  The reference program's operations, and the value they compose to.

  Its @main is a straight line of 112 host operations (the operations of the three functions it calls standing at their call
  sites). Every weakly fair execution runs them in order, so each buffer ends at the composition of the operations'
  functions applied to the launch contents of the arguments. That composition is named here in stages:

    srcIdx, dstIdx   the edge list's sources and targets, each followed by one self loop per node
    deg, dinv        a node's in-degree (self loop included) and its inverse square root (0 where the degree is not positive)
    wrap             a possibly negative index made non-negative by adding the node count
    nrm              an edge's weight  dinv[src] · 1 · dinv[dst]
    hop              one propagation step: out[i] = ∑ over edges into i of nrm · h[src]
    prop             three steps from the features
    logitsR          max (h · Wᵀ + b) 0
    shiftR, outR     the row maximum subtracted, then the logarithm of the row's sum of exponentials subtracted
-/
import proofs.«128079_j66228395705231_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 112 operations, in order (a called function's operations stand in its call's place). -/
abbrev ops : List (HloOp τ sig (Elt F)) :=
  [ nullary main_v0 (iotaInDim S100000 32 0),
    unary main_arg1 main_v1 ((extractStridedSlice S1x1250000 ![0, 0] · slices_S2x1250000_S1x1250000_0_0) : (⟨S2x1250000, .i32⟩ : BufTy).Contents (Elt F) → (⟨S1x1250000, .i32⟩ : BufTy).Contents (Elt F)),
    reshape main_v1 main_v2 rfl shapeCasts_S1x1250000_S1250000,
    binary main_v2 main_v0 main_v3 ((fun a b => concatenate S1350000 0 [⟨S1250000, a⟩, ⟨S100000, b⟩] concatenates_S1250000_S100000_S1350000_d0) : (⟨S1250000, .i32⟩ : BufTy).Contents (Elt F) → (⟨S100000, .i32⟩ : BufTy).Contents (Elt F) → (⟨S1350000, .i32⟩ : BufTy).Contents (Elt F)),
    unary main_arg1 main_v4 ((extractStridedSlice S1x1250000 ![1, 0] · slices_S2x1250000_S1x1250000_1_0) : (⟨S2x1250000, .i32⟩ : BufTy).Contents (Elt F) → (⟨S1x1250000, .i32⟩ : BufTy).Contents (Elt F)),
    reshape main_v4 main_v5 rfl shapeCasts_S1x1250000_S1250000,
    binary main_v5 main_v0 main_v6 ((fun a b => concatenate S1350000 0 [⟨S1250000, a⟩, ⟨S100000, b⟩] concatenates_S1250000_S100000_S1350000_d0) : (⟨S1250000, .i32⟩ : BufTy).Contents (Elt F) → (⟨S100000, .i32⟩ : BufTy).Contents (Elt F) → (⟨S1350000, .i32⟩ : BufTy).Contents (Elt F)),
    nullary main_cst (constant S_ .f32 0x3F800000#32),
    unary main_cst main_v7 (broadcastInDim S1350000 ![] bcast_S_S1350000 : (⟨S_, .f32⟩ : BufTy).Contents (Elt F) → (⟨S1350000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S1350000x1 ![0] bcast_S1350000_S1350000x1_0 : (⟨S1350000, .i32⟩ : BufTy).Contents (Elt F) → (⟨S1350000x1, .i32⟩ : BufTy).Contents (Elt F)),
    ternary main_v8 main_v9 main_v7 main_v10 ((fun x i u => Host.scatterAdd scatter_S100000_S1350000x1_S1350000_n_0_0_1 x i u) : (⟨S100000, .f32⟩ : BufTy).Contents (Elt F) → (⟨S1350000x1, .i32⟩ : BufTy).Contents (Elt F) → (⟨S1350000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select,
    nullary main_c (constantI S_ 32 0#32),
    unary main_c main_v15 (broadcastInDim S1350000 ![] bcast_S_S1350000 : (⟨S_, .i32⟩ : BufTy).Contents (Elt F) → (⟨S1350000, .i32⟩ : BufTy).Contents (Elt F)),
    binary main_v3 main_v15 main_v16 (cmpi .slt : (⟨S1350000, .i32⟩ : BufTy).Contents (Elt F) → (⟨S1350000, .i32⟩ : BufTy).Contents (Elt F) → (⟨S1350000, .i1⟩ : BufTy).Contents (Elt F)),
    nullary main_c_3 (constantI S_ 32 100000#32),
    unary main_c_3 main_v17 (broadcastInDim S1350000 ![] bcast_S_S1350000 : (⟨S_, .i32⟩ : BufTy).Contents (Elt F) → (⟨S1350000, .i32⟩ : BufTy).Contents (Elt F)),
    binary main_v3 main_v17 main_v18 (addi : (⟨S1350000, .i32⟩ : BufTy).Contents (Elt F) → (⟨S1350000, .i32⟩ : BufTy).Contents (Elt F) → (⟨S1350000, .i32⟩ : BufTy).Contents (Elt F)),
    ternary main_v16 main_v18 main_v3 main_v19 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    unary main_v19 main_v20 (broadcastInDim S1350000x1 ![0] bcast_S1350000_S1350000x1_0 : (⟨S1350000, .i32⟩ : BufTy).Contents (Elt F) → (⟨S1350000x1, .i32⟩ : BufTy).Contents (Elt F)),
    binary main_v14 main_v20 main_v21 ((fun x i => Host.gather gather_S100000_S1350000x1_S1350000_n_0_n_n_0_1_1 x i) : (⟨S100000, .f32⟩ : BufTy).Contents (Elt F) → (⟨S1350000x1, .i32⟩ : BufTy).Contents (Elt F) → (⟨S1350000, .f32⟩ : BufTy).Contents (Elt F)),
    binary main_v21 main_v7 main_v22 (mulf : (⟨S1350000, .f32⟩ : BufTy).Contents (Elt F) → (⟨S1350000, .f32⟩ : BufTy).Contents (Elt F) → (⟨S1350000, .f32⟩ : BufTy).Contents (Elt F)),
    nullary main_c_4 (constantI S_ 32 0#32),
    unary main_c_4 main_v23 (broadcastInDim S1350000 ![] bcast_S_S1350000 : (⟨S_, .i32⟩ : BufTy).Contents (Elt F) → (⟨S1350000, .i32⟩ : BufTy).Contents (Elt F)),
    binary main_v6 main_v23 main_v24 (cmpi .slt : (⟨S1350000, .i32⟩ : BufTy).Contents (Elt F) → (⟨S1350000, .i32⟩ : BufTy).Contents (Elt F) → (⟨S1350000, .i1⟩ : BufTy).Contents (Elt F)),
    nullary main_c_5 (constantI S_ 32 100000#32),
    unary main_c_5 main_v25 (broadcastInDim S1350000 ![] bcast_S_S1350000 : (⟨S_, .i32⟩ : BufTy).Contents (Elt F) → (⟨S1350000, .i32⟩ : BufTy).Contents (Elt F)),
    binary main_v6 main_v25 main_v26 (addi : (⟨S1350000, .i32⟩ : BufTy).Contents (Elt F) → (⟨S1350000, .i32⟩ : BufTy).Contents (Elt F) → (⟨S1350000, .i32⟩ : BufTy).Contents (Elt F)),
    ternary main_v24 main_v26 main_v6 main_v27 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    unary main_v27 main_v28 (broadcastInDim S1350000x1 ![0] bcast_S1350000_S1350000x1_0 : (⟨S1350000, .i32⟩ : BufTy).Contents (Elt F) → (⟨S1350000x1, .i32⟩ : BufTy).Contents (Elt F)),
    binary main_v14 main_v28 main_v29 ((fun x i => Host.gather gather_S100000_S1350000x1_S1350000_n_0_n_n_0_1_1 x i) : (⟨S100000, .f32⟩ : BufTy).Contents (Elt F) → (⟨S1350000x1, .i32⟩ : BufTy).Contents (Elt F) → (⟨S1350000, .f32⟩ : BufTy).Contents (Elt F)),
    binary main_v22 main_v29 main_v30 (mulf : (⟨S1350000, .f32⟩ : BufTy).Contents (Elt F) → (⟨S1350000, .f32⟩ : BufTy).Contents (Elt F) → (⟨S1350000, .f32⟩ : BufTy).Contents (Elt F)),
    unary main_v30 main_v31 (broadcastInDim S1350000x1 ![0] bcast_S1350000_S1350000x1_0 : (⟨S1350000, .f32⟩ : BufTy).Contents (Elt F) → (⟨S1350000x1, .f32⟩ : BufTy).Contents (Elt F)),
    nullary main_c_6 (constantI S_ 32 0#32),
    unary main_c_6 main_v32 (broadcastInDim S1350000 ![] bcast_S_S1350000 : (⟨S_, .i32⟩ : BufTy).Contents (Elt F) → (⟨S1350000, .i32⟩ : BufTy).Contents (Elt F)),
    binary main_v3 main_v32 main_v33 (cmpi .slt : (⟨S1350000, .i32⟩ : BufTy).Contents (Elt F) → (⟨S1350000, .i32⟩ : BufTy).Contents (Elt F) → (⟨S1350000, .i1⟩ : BufTy).Contents (Elt F)),
    nullary main_c_7 (constantI S_ 32 100000#32),
    unary main_c_7 main_v34 (broadcastInDim S1350000 ![] bcast_S_S1350000 : (⟨S_, .i32⟩ : BufTy).Contents (Elt F) → (⟨S1350000, .i32⟩ : BufTy).Contents (Elt F)),
    binary main_v3 main_v34 main_v35 (addi : (⟨S1350000, .i32⟩ : BufTy).Contents (Elt F) → (⟨S1350000, .i32⟩ : BufTy).Contents (Elt F) → (⟨S1350000, .i32⟩ : BufTy).Contents (Elt F)),
    ternary main_v33 main_v35 main_v3 main_v36 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    unary main_v36 main_v37 (broadcastInDim S1350000x1 ![0] bcast_S1350000_S1350000x1_0 : (⟨S1350000, .i32⟩ : BufTy).Contents (Elt F) → (⟨S1350000x1, .i32⟩ : BufTy).Contents (Elt F)),
    binary main_arg0 main_v37 main_v38 ((fun x i => Host.gather gather_S100000x64_S1350000x1_S1350000x64_1_0_n_n_0_1_164 x i) : (⟨S100000x64, .f32⟩ : BufTy).Contents (Elt F) → (⟨S1350000x1, .i32⟩ : BufTy).Contents (Elt F) → (⟨S1350000x64, .f32⟩ : BufTy).Contents (Elt F)),
    unary main_v31 main_v39 (broadcastInDim S1350000x64 ![0, 1] bcast_S1350000x1_S1350000x64_0_1 : (⟨S1350000x1, .f32⟩ : BufTy).Contents (Elt F) → (⟨S1350000x64, .f32⟩ : BufTy).Contents (Elt F)),
    binary main_v39 main_v38 main_v40 (mulf : (⟨S1350000x64, .f32⟩ : BufTy).Contents (Elt F) → (⟨S1350000x64, .f32⟩ : BufTy).Contents (Elt F) → (⟨S1350000x64, .f32⟩ : BufTy).Contents (Elt F)),
    nullary main_cst_8 (constant S_ .f32 0x00000000#32),
    unary main_cst_8 main_v41 (broadcastInDim S100000x64 ![] bcast_S_S100000x64 : (⟨S_, .f32⟩ : BufTy).Contents (Elt F) → (⟨S100000x64, .f32⟩ : BufTy).Contents (Elt F)),
    unary main_v6 main_v42 (broadcastInDim S1350000x1 ![0] bcast_S1350000_S1350000x1_0 : (⟨S1350000, .i32⟩ : BufTy).Contents (Elt F) → (⟨S1350000x1, .i32⟩ : BufTy).Contents (Elt F)),
    ternary main_v41 main_v42 main_v40 main_v43 ((fun x i u => Host.scatterAdd scatter_S100000x64_S1350000x1_S1350000x64_1_0_0_1 x i u) : (⟨S100000x64, .f32⟩ : BufTy).Contents (Elt F) → (⟨S1350000x1, .i32⟩ : BufTy).Contents (Elt F) → (⟨S1350000x64, .f32⟩ : BufTy).Contents (Elt F) → (⟨S100000x64, .f32⟩ : BufTy).Contents (Elt F)),
    unary main_v30 main_v44 (broadcastInDim S1350000x1 ![0] bcast_S1350000_S1350000x1_0 : (⟨S1350000, .f32⟩ : BufTy).Contents (Elt F) → (⟨S1350000x1, .f32⟩ : BufTy).Contents (Elt F)),
    nullary main_c_9 (constantI S_ 32 0#32),
    unary main_c_9 main_v45 (broadcastInDim S1350000 ![] bcast_S_S1350000 : (⟨S_, .i32⟩ : BufTy).Contents (Elt F) → (⟨S1350000, .i32⟩ : BufTy).Contents (Elt F)),
    binary main_v3 main_v45 main_v46 (cmpi .slt : (⟨S1350000, .i32⟩ : BufTy).Contents (Elt F) → (⟨S1350000, .i32⟩ : BufTy).Contents (Elt F) → (⟨S1350000, .i1⟩ : BufTy).Contents (Elt F)),
    nullary main_c_10 (constantI S_ 32 100000#32),
    unary main_c_10 main_v47 (broadcastInDim S1350000 ![] bcast_S_S1350000 : (⟨S_, .i32⟩ : BufTy).Contents (Elt F) → (⟨S1350000, .i32⟩ : BufTy).Contents (Elt F)),
    binary main_v3 main_v47 main_v48 (addi : (⟨S1350000, .i32⟩ : BufTy).Contents (Elt F) → (⟨S1350000, .i32⟩ : BufTy).Contents (Elt F) → (⟨S1350000, .i32⟩ : BufTy).Contents (Elt F)),
    ternary main_v46 main_v48 main_v3 main_v49 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    unary main_v49 main_v50 (broadcastInDim S1350000x1 ![0] bcast_S1350000_S1350000x1_0 : (⟨S1350000, .i32⟩ : BufTy).Contents (Elt F) → (⟨S1350000x1, .i32⟩ : BufTy).Contents (Elt F)),
    binary main_v43 main_v50 main_v51 ((fun x i => Host.gather gather_S100000x64_S1350000x1_S1350000x64_1_0_n_n_0_1_164 x i) : (⟨S100000x64, .f32⟩ : BufTy).Contents (Elt F) → (⟨S1350000x1, .i32⟩ : BufTy).Contents (Elt F) → (⟨S1350000x64, .f32⟩ : BufTy).Contents (Elt F)),
    unary main_v44 main_v52 (broadcastInDim S1350000x64 ![0, 1] bcast_S1350000x1_S1350000x64_0_1 : (⟨S1350000x1, .f32⟩ : BufTy).Contents (Elt F) → (⟨S1350000x64, .f32⟩ : BufTy).Contents (Elt F)),
    binary main_v52 main_v51 main_v53 (mulf : (⟨S1350000x64, .f32⟩ : BufTy).Contents (Elt F) → (⟨S1350000x64, .f32⟩ : BufTy).Contents (Elt F) → (⟨S1350000x64, .f32⟩ : BufTy).Contents (Elt F)),
    nullary main_cst_11 (constant S_ .f32 0x00000000#32),
    unary main_cst_11 main_v54 (broadcastInDim S100000x64 ![] bcast_S_S100000x64 : (⟨S_, .f32⟩ : BufTy).Contents (Elt F) → (⟨S100000x64, .f32⟩ : BufTy).Contents (Elt F)),
    unary main_v6 main_v55 (broadcastInDim S1350000x1 ![0] bcast_S1350000_S1350000x1_0 : (⟨S1350000, .i32⟩ : BufTy).Contents (Elt F) → (⟨S1350000x1, .i32⟩ : BufTy).Contents (Elt F)),
    ternary main_v54 main_v55 main_v53 main_v56 ((fun x i u => Host.scatterAdd scatter_S100000x64_S1350000x1_S1350000x64_1_0_0_1 x i u) : (⟨S100000x64, .f32⟩ : BufTy).Contents (Elt F) → (⟨S1350000x1, .i32⟩ : BufTy).Contents (Elt F) → (⟨S1350000x64, .f32⟩ : BufTy).Contents (Elt F) → (⟨S100000x64, .f32⟩ : BufTy).Contents (Elt F)),
    unary main_v30 main_v57 (broadcastInDim S1350000x1 ![0] bcast_S1350000_S1350000x1_0 : (⟨S1350000, .f32⟩ : BufTy).Contents (Elt F) → (⟨S1350000x1, .f32⟩ : BufTy).Contents (Elt F)),
    nullary main_c_12 (constantI S_ 32 0#32),
    unary main_c_12 main_v58 (broadcastInDim S1350000 ![] bcast_S_S1350000 : (⟨S_, .i32⟩ : BufTy).Contents (Elt F) → (⟨S1350000, .i32⟩ : BufTy).Contents (Elt F)),
    binary main_v3 main_v58 main_v59 (cmpi .slt : (⟨S1350000, .i32⟩ : BufTy).Contents (Elt F) → (⟨S1350000, .i32⟩ : BufTy).Contents (Elt F) → (⟨S1350000, .i1⟩ : BufTy).Contents (Elt F)),
    nullary main_c_13 (constantI S_ 32 100000#32),
    unary main_c_13 main_v60 (broadcastInDim S1350000 ![] bcast_S_S1350000 : (⟨S_, .i32⟩ : BufTy).Contents (Elt F) → (⟨S1350000, .i32⟩ : BufTy).Contents (Elt F)),
    binary main_v3 main_v60 main_v61 (addi : (⟨S1350000, .i32⟩ : BufTy).Contents (Elt F) → (⟨S1350000, .i32⟩ : BufTy).Contents (Elt F) → (⟨S1350000, .i32⟩ : BufTy).Contents (Elt F)),
    ternary main_v59 main_v61 main_v3 main_v62 (select : (⟨S1350000, .i1⟩ : BufTy).Contents (Elt F) → (⟨S1350000, .i32⟩ : BufTy).Contents (Elt F) → (⟨S1350000, .i32⟩ : BufTy).Contents (Elt F) → (⟨S1350000, .i32⟩ : BufTy).Contents (Elt F)),
    unary main_v62 main_v63 (broadcastInDim S1350000x1 ![0] bcast_S1350000_S1350000x1_0 : (⟨S1350000, .i32⟩ : BufTy).Contents (Elt F) → (⟨S1350000x1, .i32⟩ : BufTy).Contents (Elt F)),
    binary main_v56 main_v63 main_v64 ((fun x i => Host.gather gather_S100000x64_S1350000x1_S1350000x64_1_0_n_n_0_1_164 x i) : (⟨S100000x64, .f32⟩ : BufTy).Contents (Elt F) → (⟨S1350000x1, .i32⟩ : BufTy).Contents (Elt F) → (⟨S1350000x64, .f32⟩ : BufTy).Contents (Elt F)),
    unary main_v57 main_v65 (broadcastInDim S1350000x64 ![0, 1] bcast_S1350000x1_S1350000x64_0_1 : (⟨S1350000x1, .f32⟩ : BufTy).Contents (Elt F) → (⟨S1350000x64, .f32⟩ : BufTy).Contents (Elt F)),
    binary main_v65 main_v64 main_v66 (mulf : (⟨S1350000x64, .f32⟩ : BufTy).Contents (Elt F) → (⟨S1350000x64, .f32⟩ : BufTy).Contents (Elt F) → (⟨S1350000x64, .f32⟩ : BufTy).Contents (Elt F)),
    nullary main_cst_14 (constant S_ .f32 0x00000000#32),
    unary main_cst_14 main_v67 (broadcastInDim S100000x64 ![] bcast_S_S100000x64 : (⟨S_, .f32⟩ : BufTy).Contents (Elt F) → (⟨S100000x64, .f32⟩ : BufTy).Contents (Elt F)),
    unary main_v6 main_v68 (broadcastInDim S1350000x1 ![0] bcast_S1350000_S1350000x1_0 : (⟨S1350000, .i32⟩ : BufTy).Contents (Elt F) → (⟨S1350000x1, .i32⟩ : BufTy).Contents (Elt F)),
    ternary main_v67 main_v68 main_v66 main_v69 ((fun x i u => Host.scatterAdd scatter_S100000x64_S1350000x1_S1350000x64_1_0_0_1 x i u) : (⟨S100000x64, .f32⟩ : BufTy).Contents (Elt F) → (⟨S1350000x1, .i32⟩ : BufTy).Contents (Elt F) → (⟨S1350000x64, .f32⟩ : BufTy).Contents (Elt F) → (⟨S100000x64, .f32⟩ : BufTy).Contents (Elt F)),
    unary main_arg2 main_v70 ((transpose S64x40 [1, 0] · transposes_S40x64_S64x40_1_0) : (⟨S40x64, .f32⟩ : BufTy).Contents (Elt F) → (⟨S64x40, .f32⟩ : BufTy).Contents (Elt F)),
    binary main_v69 main_v70 main_v71 ((fun l r => Host.dotGeneral dot_S100000x64_S64x40_S100000x40_1_0_0_1_n_n none l r) : (⟨S100000x64, .f32⟩ : BufTy).Contents (Elt F) → (⟨S64x40, .f32⟩ : BufTy).Contents (Elt F) → (⟨S100000x40, .f32⟩ : BufTy).Contents (Elt F)),
    unary main_arg3 main_v72 (broadcastInDim S1x40 ![1] bcast_S40_S1x40_1 : (⟨S40, .f32⟩ : BufTy).Contents (Elt F) → (⟨S1x40, .f32⟩ : BufTy).Contents (Elt F)),
    unary main_v72 main_v73 (broadcastInDim S100000x40 ![0, 1] bcast_S1x40_S100000x40_0_1 : (⟨S1x40, .f32⟩ : BufTy).Contents (Elt F) → (⟨S100000x40, .f32⟩ : BufTy).Contents (Elt F)),
    binary main_v71 main_v73 main_v74 (addf : (⟨S100000x40, .f32⟩ : BufTy).Contents (Elt F) → (⟨S100000x40, .f32⟩ : BufTy).Contents (Elt F) → (⟨S100000x40, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x40, .f32⟩) main_call1_v0) (broadcastInDim S100000x40 ![] bcast_S_S100000x40),
    TRef.binary (TRef.of (T := ⟨S100000x40, .f32⟩) main_v74) (TRef.of (T := ⟨S100000x40, .f32⟩) main_call1_v0) (TRef.of (T := ⟨S100000x40, .f32⟩) main_v75) maximumf,
    TRef.nullary (TRef.of (T := ⟨S_, .f32⟩) main_call2_cst) (constant S_ .f32 0xFF800000#32),
    TRef.binary (TRef.of (T := ⟨S100000x40, .f32⟩) main_v75) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf,
    TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v75) (TRef.of (T := ⟨S100000x40, .f32⟩) main_call2_v4) (TRef.of (T := ⟨S100000x40, .f32⟩) main_call2_v5) subf,
    TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v76) subf ]

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
set_option maxRecDepth 8192 in
theorem ops_sub : (ops : List (HloOp τ sig (Elt F))).Forall fun op => op.bufs ⊆ tcRefs τ sig :=
  ⟨nullary_bufs_sub .., unary_bufs_sub .., reshape_bufs_sub .., binary_bufs_sub .., unary_bufs_sub .., reshape_bufs_sub .., binary_bufs_sub .., nullary_bufs_sub .., unary_bufs_sub .., nullary_bufs_sub .., unary_bufs_sub .., unary_bufs_sub .., ternary_bufs_sub .., nullary_bufs_sub .., unary_bufs_sub .., binary_bufs_sub .., unary_bufs_sub .., nullary_bufs_sub .., unary_bufs_sub .., unary_bufs_sub .., ternary_bufs_sub .., nullary_bufs_sub .., unary_bufs_sub .., binary_bufs_sub .., nullary_bufs_sub .., unary_bufs_sub .., binary_bufs_sub .., ternary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., nullary_bufs_sub .., unary_bufs_sub .., binary_bufs_sub .., nullary_bufs_sub .., unary_bufs_sub .., binary_bufs_sub .., ternary_bufs_sub .., unary_bufs_sub .., binary_bufs_sub .., unary_bufs_sub .., binary_bufs_sub .., nullary_bufs_sub .., unary_bufs_sub .., unary_bufs_sub .., ternary_bufs_sub .., unary_bufs_sub .., binary_bufs_sub .., unary_bufs_sub .., unary_bufs_sub .., binary_bufs_sub .., nullary_bufs_sub .., unary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-! ## The composed value, in stages -/

/-- Edge sources followed by the nodes themselves (one self loop per node). -/
def srcIdx (x1 : (⟨S2x1250000, .i32⟩ : BufTy).Contents (Elt F)) : (⟨S1350000, .i32⟩ : BufTy).Contents (Elt F) :=
  concatenate S1350000 0 [⟨S1250000, (shapeCast _ (extractStridedSlice S1x1250000 ![0, 0] x1 slices_S2x1250000_S1x1250000_0_0) shapeCasts_S1x1250000_S1250000)⟩, ⟨S100000, (iotaInDim S100000 32 0)⟩] concatenates_S1250000_S100000_S1350000_d0

/-- Edge targets followed by the nodes themselves. -/
def dstIdx (x1 : (⟨S2x1250000, .i32⟩ : BufTy).Contents (Elt F)) : (⟨S1350000, .i32⟩ : BufTy).Contents (Elt F) :=
  concatenate S1350000 0 [⟨S1250000, (shapeCast _ (extractStridedSlice S1x1250000 ![1, 0] x1 slices_S2x1250000_S1x1250000_1_0) shapeCasts_S1x1250000_S1250000)⟩, ⟨S100000, (iotaInDim S100000 32 0)⟩] concatenates_S1250000_S100000_S1350000_d0

/-- The weight one of every edge. -/
def ones : (⟨S1350000, .f32⟩ : BufTy).Contents (Elt F) :=
  broadcastInDim S1350000 ![] bcast_S_S1350000 (constant (F := F) S_ .f32 0x3F800000#32)

/-- In-degrees: the ones scattered to their targets and added, from zero. -/
def deg (x1 : (⟨S2x1250000, .i32⟩ : BufTy).Contents (Elt F)) : (⟨S100000, .f32⟩ : BufTy).Contents (Elt F) :=
  Host.scatterAdd scatter_S100000_S1350000x1_S1350000_n_0_0_1 (broadcastInDim S100000 ![] bcast_S_S100000 (constant (F := F) S_ .f32 0x00000000#32))
    (broadcastInDim S1350000x1 ![0] bcast_S1350000_S1350000x1_0 (dstIdx (F := F) x1)) (ones (F := F))

/-- The inverse square root of the degree where it is positive, zero elsewhere. -/
def dinv (x1 : (⟨S2x1250000, .i32⟩ : BufTy).Contents (Elt F)) : (⟨S100000, .f32⟩ : BufTy).Contents (Elt F) :=
  select (cmpf .ogt (deg (F := F) x1) (broadcastInDim S100000 ![] bcast_S_S100000 (constant (F := F) S_ .f32 0x00000000#32)))
    (Host.rsqrt (deg (F := F) x1)) (broadcastInDim S100000 ![] bcast_S_S100000 (id (constant (F := F) S_ .f32 0x00000000#32)))

/-- A negative index has the node count added; as a column of index vectors. -/
def wrap (ix : (⟨S1350000, .i32⟩ : BufTy).Contents (Elt F)) : (⟨S1350000x1, .i32⟩ : BufTy).Contents (Elt F) :=
  broadcastInDim S1350000x1 ![0] bcast_S1350000_S1350000x1_0
    (select (cmpi .slt ix (broadcastInDim S1350000 ![] bcast_S_S1350000 (constantI S_ 32 0#32)))
      (addi ix (broadcastInDim S1350000 ![] bcast_S_S1350000 (constantI S_ 32 100000#32))) ix)

/-- An edge's weight: `dinv` at its source, times one, times `dinv` at its target. -/
def nrm (x1 : (⟨S2x1250000, .i32⟩ : BufTy).Contents (Elt F)) : (⟨S1350000, .f32⟩ : BufTy).Contents (Elt F) :=
  mulf (mulf (Host.gather gather_S100000_S1350000x1_S1350000_n_0_n_n_0_1_1 (dinv (F := F) x1) (wrap (F := F) (srcIdx (F := F) x1))) (ones (F := F)))
    (Host.gather gather_S100000_S1350000x1_S1350000_n_0_n_n_0_1_1 (dinv (F := F) x1) (wrap (F := F) (dstIdx (F := F) x1)))

/-- One propagation step: every edge's weighted source row, scattered to its target and added, from zero. -/
def hop (x1 : (⟨S2x1250000, .i32⟩ : BufTy).Contents (Elt F)) (h : (⟨S100000x64, .f32⟩ : BufTy).Contents (Elt F)) :
    (⟨S100000x64, .f32⟩ : BufTy).Contents (Elt F) :=
  Host.scatterAdd scatter_S100000x64_S1350000x1_S1350000x64_1_0_0_1 (broadcastInDim S100000x64 ![] bcast_S_S100000x64 (constant (F := F) S_ .f32 0x00000000#32))
    (broadcastInDim S1350000x1 ![0] bcast_S1350000_S1350000x1_0 (dstIdx (F := F) x1))
    (mulf (broadcastInDim S1350000x64 ![0, 1] bcast_S1350000x1_S1350000x64_0_1 (broadcastInDim S1350000x1 ![0] bcast_S1350000_S1350000x1_0 (nrm (F := F) x1)))
      (Host.gather gather_S100000x64_S1350000x1_S1350000x64_1_0_n_n_0_1_164 h (wrap (F := F) (srcIdx (F := F) x1))))

/-- Three propagation steps from the features. -/
def prop (x0 : (⟨S100000x64, .f32⟩ : BufTy).Contents (Elt F)) (x1 : (⟨S2x1250000, .i32⟩ : BufTy).Contents (Elt F)) :
    (⟨S100000x64, .f32⟩ : BufTy).Contents (Elt F) :=
  hop (F := F) x1 (hop (F := F) x1 (hop (F := F) x1 x0))

/-- The rectified logits `max (h · Wᵀ + b) 0`. -/
def logitsR (h : (⟨S100000x64, .f32⟩ : BufTy).Contents (Elt F)) (x2 : (⟨S40x64, .f32⟩ : BufTy).Contents (Elt F))
    (x3 : (⟨S40, .f32⟩ : BufTy).Contents (Elt F)) : (⟨S100000x40, .f32⟩ : BufTy).Contents (Elt F) :=
  maximumf (addf (Host.dotGeneral dot_S100000x64_S64x40_S100000x40_1_0_0_1_n_n none h (transpose S64x40 [1, 0] x2 transposes_S40x64_S64x40_1_0))
      (broadcastInDim S100000x40 ![0, 1] bcast_S1x40_S100000x40_0_1 (broadcastInDim S1x40 ![1] bcast_S40_S1x40_1 x3)))
    (broadcastInDim S100000x40 ![] bcast_S_S100000x40 (constant (F := F) S_ .f32 0x00000000#32))

/-- Each row with its maximum (taken from -∞, and once more against -∞) subtracted. -/
def shiftR (z : (⟨S100000x40, .f32⟩ : BufTy).Contents (Elt F)) : (⟨S100000x40, .f32⟩ : BufTy).Contents (Elt F) :=
  subf z (broadcastInDim S100000x40 ![0, 1] bcast_S100000x1_S100000x40_0_1 (broadcastInDim S100000x1 ![0] bcast_S100000_S100000x1_0
    (maximumf (broadcastInDim S100000 ![] bcast_S_S100000 (constant (F := F) S_ .f32 0xFF800000#32))
      (Host.reduce FloatOps.maximumf z (constant (F := F) S_ .f32 0xFF800000#32) reducesTo_S100000x40_S100000_d1 h_S_))))

/-- Each row with the logarithm of its sum of exponentials subtracted. -/
def outR (s : (⟨S100000x40, .f32⟩ : BufTy).Contents (Elt F)) : (⟨S100000x40, .f32⟩ : BufTy).Contents (Elt F) :=
  subf s (broadcastInDim S100000x40 ![0, 1] bcast_S100000x1_S100000x40_0_1 (Host.log (broadcastInDim S100000x1 ![0] bcast_S100000_S100000x1_0
    (Host.reduceAdd (Host.exp s) (constant (F := F) S_ .f32 0x00000000#32) reducesTo_S100000x40_S100000_d1 h_S_))))

/-- The reference's result as a function of its four arguments. -/
def result (x0 : (⟨S100000x64, .f32⟩ : BufTy).Contents (Elt F)) (x1 : (⟨S2x1250000, .i32⟩ : BufTy).Contents (Elt F))
    (x2 : (⟨S40x64, .f32⟩ : BufTy).Contents (Elt F)) (x3 : (⟨S40, .f32⟩ : BufTy).Contents (Elt F)) :
    (⟨S100000x40, .f32⟩ : BufTy).Contents (Elt F) :=
  outR (F := F) (shiftR (F := F) (logitsR (F := F) (prop (F := F) x0 x1) x2 x3))

end Cert.RefRun

end
-- ==== Proof.LibTRef.lean ====
/-
  A called function's buffers hold values at the function's own types; an operation inside the call reads and writes a
  buffer through a transport along the equation between the buffer's type and the value's type. Carrying a value to the
  buffer's type and back gives the value again, so a chain of operations inside a call composes as if there were no
  transports.
-/
import Idealize.ShloMosaic.Lib.StableHlo

namespace Cert.TRefLemmas

open Idealize.ShloMosaic

/-- Contents carried to a buffer's type and back are unchanged. -/
theorem ofBuf_toBuf {sg : RefSig} {Vl : EltTy → Type} {T : BufTy} (x : StableHlo.TRef sg T) (v : T.Contents Vl) :
    x.ofBuf (x.toBuf v) = v := by
  unfold StableHlo.TRef.ofBuf StableHlo.TRef.toBuf
  simp

end Cert.TRefLemmas
-- ==== Proof.RefRun.lean ====
/-
  The reference program's run: every weakly fair execution of its @main terminates with the result buffer at `result` of
  the arguments' launch contents (Proof/RefOps.lean names that value in stages) and the arguments unchanged.
-/
import proofs.«128079_j66228395705231_1_alg».proof.Proof.RefOps
import proofs.«128079_j66228395705231_1_alg».proof.Proof.LibTRef

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

set_option maxRecDepth 16384 in
set_option maxHeartbeats 44800000 in
/-- On every device, from any memory with zero counters: every weakly fair execution of @main terminates with the result
    buffer at `result` of the arguments' launch contents and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v76) = result (F := F) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c main_v76).trans (by
        after_results_simp
        -- the two concatenations' operands (a row of the edge index, reshaped, and the node numbers) are the values of the
        -- first six operations: evaluate those one operation at a time
        repeat (first
          | rw [nullary_result] | rw [unary_result] | rw [binary_result] | rw [reshape_result]
          | (rw [nullary_result_ne]; rotate_left; decide)
          | (rw [unary_result_ne]; rotate_left; decide)
          | (rw [binary_result_ne]; rotate_left; decide)
          | (rw [reshape_result_ne]; rotate_left; decide))
        -- values pass through the called functions' buffers unchanged
        simp only [Cert.TRefLemmas.ofBuf_toBuf]
        unfold result outR shiftR logitsR prop hop nrm dinv deg ones wrap srcIdx dstIdx
        rfl),
      (h c main_arg0).trans (by after_results_simp <;> rfl),
      (h c main_arg1).trans (by after_results_simp <;> rfl),
      (h c main_arg2).trans (by after_results_simp <;> rfl),
      (h c main_arg3).trans (by after_results_simp <;> rfl)⟩)
    (run_seq scopedRefs_eq scopedSems_eq defs main (fun _ => ops) main_eq (fun _ => ops_sub) m ρ)

end Cert.RefRun

end
-- ==== Proof.RowSpec.lean ====
/-
  The function of one row that both programs compute, on the extended reals.

  For a feature row `x` (64 entries), a weight matrix `W` (40 × 64) and a bias `b` (40 entries):
    z c     = max (∑ k, x k · W c k + b c) 0          the rectified logit of class `c`
    M       = the maximum of the forty `z c`, folded from -∞
    s c     = z c - M                                  the shifted logit
    L       = log (∑ c, exp (s c))
    out c   = s c - L                                  log-softmax of the rectified logits
  The zero and the -∞ are kept as the binary words the programs print (the same words on both sides, so they are never
  evaluated). Every operation is the same on both sides and in the same order, so no entry has to be finite.

  `G` is that row function applied to every row of a 100000 × 64 array.
-/
import Idealize.ShloMosaic.Lib.ValueIdx
import Idealize.ShloMosaic.PureOps.Ideal.Laws

noncomputable section

namespace Cert.RowSpec

open Idealize.ShloMosaic Idealize.ShloMosaic.ValueIdx

/-- The rectified logit of class `c`: `max (x · W c + b c) 0`. -/
def logit (x : Fin 64 → EReal) (W : Fin 40 → Fin 64 → EReal) (b : Fin 40 → EReal) (c : Fin 40) : EReal :=
  max ((∑ k : Fin 64, x k * W c k) + b c) (Ideal.ofBits .f32 0x00000000#32)

/-- The row's largest rectified logit, folded from the word of -∞. -/
def rowMax (x : Fin 64 → EReal) (W : Fin 40 → Fin 64 → EReal) (b : Fin 40 → EReal) : EReal :=
  (Finset.univ : Finset (Fin 40)).fold max (Ideal.ofBits .f32 0xFF800000#32) (logit x W b)

/-- The logit with the row's maximum subtracted. -/
def shifted (x : Fin 64 → EReal) (W : Fin 40 → Fin 64 → EReal) (b : Fin 40 → EReal) (c : Fin 40) : EReal :=
  logit x W b c - rowMax x W b

/-- The logarithm of the sum of the exponentials of the shifted logits. -/
def logSumExp (x : Fin 64 → EReal) (W : Fin 40 → Fin 64 → EReal) (b : Fin 40 → EReal) : EReal :=
  Ideal.log (∑ c : Fin 40, Ideal.exp (shifted x W b c))

/-- The row's result at class `c`. -/
def rowOut (x : Fin 64 → EReal) (W : Fin 40 → Fin 64 → EReal) (b : Fin 40 → EReal) (c : Fin 40) : EReal :=
  shifted x W b c - logSumExp x W b

/-- The whole result: row `i 0` of `H` through `rowOut`, read at class `i 1`. -/
def G (H : (⟨2, ![100000, 64]⟩ : Shape).Idx → EReal) (W : (⟨2, ![40, 64]⟩ : Shape).Idx → EReal)
    (b : (⟨1, ![40]⟩ : Shape).Idx → EReal) : (⟨2, ![100000, 40]⟩ : Shape).Idx → EReal :=
  fun i => rowOut (fun k => H (ix2 (i 0) k)) (fun c k => W (ix2 c k)) (fun c => b (ix1 c)) (i 1)

/-- `G` at the index with coordinates `(r, c)`. -/
theorem G_apply (H : (⟨2, ![100000, 64]⟩ : Shape).Idx → EReal) (W : (⟨2, ![40, 64]⟩ : Shape).Idx → EReal)
    (b : (⟨1, ![40]⟩ : Shape).Idx → EReal) (r : Fin 100000) (c : Fin 40) :
    G H W b (ix2 r c) = rowOut (fun k => H (ix2 r k)) (fun c k => W (ix2 c k)) (fun c => b (ix1 c)) c := rfl

/-- Folding `max` from -∞ and then taking `max` with -∞ once more changes nothing: -∞ is the least extended real. -/
theorem max_negInf_left (y : EReal) : max (Ideal.ofBits .f32 0xFF800000#32) y = y := by
  have h : Ideal.ofBits .f32 0xFF800000#32 = (⊥ : EReal) := by simp [Ideal.ofBits, Ideal.ieee]
  rw [h]; exact max_eq_right bot_le

end Cert.RowSpec

end
-- ==== Proof.LibRowMax.lean ====
/-
  The maximum along the rows of an `[a, b]` array of extended reals, read at a row, over any extents: the vector
  reduction `multi_reduction <maximumf>` over axis 1 and the host's one-operand `reduce` with a `maximum` body over
  axis 1 are both, at row `r`, the fold of `max` from the initial value over the row's `b` entries (`max` is
  commutative and associative, so the order the definitions fold in does not matter).
-/
import Idealize.ShloMosaic.Lib.ValueIdx
import Idealize.ShloMosaic.PureOps.Ideal.Laws

noncomputable section

namespace Cert.RowMax

open Idealize.ShloMosaic Idealize.ShloMosaic.ValueIdx

/-- The index of an `[a, b]` array that drops to row `r` with coordinate `k` on the reduced axis is `(r, k)`. -/
theorem lift_row {a b : ℕ} (h : (⟨2, ![a, b]⟩ : Shape).Reduces [1] ⟨1, ![a]⟩) (r : Fin a)
    (k : Fin ((⟨2, ![a, b]⟩ : Shape).size 1)) : h.lift (ix1 r) k = ix2 r k := by
  funext c
  apply Fin.ext
  match c with
  | ⟨0, _⟩ => rfl
  | ⟨1, _⟩ => rfl

/-- The vector reduction `multi_reduction <maximumf>` of an `[a, b]` array along axis 1, from the word of -∞, is at row
    `r` the fold of `max` from -∞ over that row's `b` entries. -/
theorem multiReduction_rowMax_apply {a b : ℕ} (v : FVec Ideal ⟨2, ![a, b]⟩ .f32)
    (h : (⟨2, ![a, b]⟩ : Shape).Reduces [1] ⟨1, ![a]⟩) (hφ : FKind.Formats .f32)
    (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max (Ideal.ofBits .f32 0xFF800000#32) (fun k => v (ix2 r k)) := by
  refine (Ideal.multiReduction_maximumf_single v 0xFF800000#32 h hφ hacc (ix1 r)).trans ?_
  exact congrArg (fun f => Finset.fold max (Ideal.ofBits .f32 0xFF800000#32) f Finset.univ)
    (funext fun k => congrArg v (lift_row h r k))

/-- The host's `reduce` of an `[a, b]` array along axis 1 with a `maximum` body is at row `r` the fold of `max` from the
    initial value over that row's `b` entries. -/
theorem hostReduce_rowMax_apply {a b : ℕ} {u : Shape} (x : FVec Ideal ⟨2, ![a, b]⟩ .f32) (init : FVec Ideal u .f32)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  exact congrArg (fun f => Finset.fold max (init (Shape.Idx.first hu)) f Finset.univ)
    (funext fun k => congrArg x (lift_row h r k))

end Cert.RowMax

end
-- ==== Proof.RefTail.lean ====
/-
  The reference's last operations read at an index: they compute the specification's row function of every row.

  After the three propagation steps the reference takes `h · Wᵀ + b` (a product with the transposed weights: entry (r, c) is
  the sum over the 64 features of h[r, k] · W[c, k]), rectifies it, and applies the log-softmax along the classes: the row
  maximum (a reduce from -∞, then once more the maximum with -∞, which changes nothing), the shifted row, the logarithm of
  the row's sum of exponentials (a reduce-add from zero), and the difference. Index by index this is `RowSpec.G`.
-/
import proofs.«128079_j66228395705231_1_alg».proof.Proof.RefOps
import proofs.«128079_j66228395705231_1_alg».proof.Proof.RowSpec
import proofs.«128079_j66228395705231_1_alg».proof.Proof.LibRowMax
import Idealize.ShloMosaic.Lib.Pipeline.Value
import Idealize.ShloMosaic.Lib.IdealHost

noncomputable section

namespace Cert.RefTail

open Cert.ReferenceIdeal Cert.ReferenceIdeal.Gen Cert.RefRun Idealize.ShloMosaic Idealize.ShloMosaic.ValueIdx

/-- The reference's product: features × transposed weights, contracted along the features. -/
abbrev D := dot_S100000x64_S64x40_S100000x40_1_0_0_1_n_n

/-! ## The product's operand indices -/

theorem lhs0 (i : S100000x40.Idx) (q : D.contr.Idx) : (D.lhsIdx i q 0).val = (i 0).val := by
  unfold DotDims.lhsIdx
  rw [dif_neg (show ¬(0 : Fin S100000x64.rank) ∈ D.lhsBatch by decide), dif_pos (show (0 : Fin S100000x64.rank) ∈ D.lhsNonContracting by decide)]
  rfl

theorem lhs1 (i : S100000x40.Idx) (q : D.contr.Idx) : (D.lhsIdx i q 1).val = (q ⟨0, by decide⟩).val :=
  D.lhsIdx_val_of_single rfl i q

theorem rhs0 (i : S100000x40.Idx) (q : D.contr.Idx) : (D.rhsIdx i q 0).val = (q ⟨0, by decide⟩).val :=
  D.rhsIdx_val_of_single rfl i q

theorem rhs1 (i : S100000x40.Idx) (q : D.contr.Idx) : (D.rhsIdx i q 1).val = (i 1).val := by
  unfold DotDims.rhsIdx
  rw [dif_neg (show ¬(1 : Fin S64x40.rank) ∈ D.rhsBatch by decide), dif_pos (show (1 : Fin S64x40.rank) ∈ D.rhsNonContracting by decide)]
  rfl

/-! ## Layout operations of the tail at an index -/

/-- A scalar broadcast to the whole 100000 × 40 array reads the scalar. -/
theorem splat_apply {α : Type} (v : S_.Idx → α) (i : S100000x40.Idx) :
    broadcastInDim S100000x40 ![] bcast_S_S100000x40 v i = v ix0 :=
  broadcastInDim_apply _ bcast_S_S100000x40 v i ix0 (fun a => a.elim0)

/-- A scalar broadcast to a length-100000 vector reads the scalar. -/
theorem splat1_apply {α : Type} (v : S_.Idx → α) (i : S100000.Idx) :
    broadcastInDim S100000 ![] bcast_S_S100000 v i = v ix0 :=
  broadcastInDim_apply _ bcast_S_S100000 v i ix0 (fun a => a.elim0)

/-- The bias as a row, broadcast down the rows: entry (r, c) is the bias at c. -/
theorem bias_apply {α : Type} (x3 : S40.Idx → α) (r : Fin 100000) (c : Fin 40) :
    broadcastInDim S100000x40 ![0, 1] bcast_S1x40_S100000x40_0_1 (broadcastInDim S1x40 ![1] bcast_S40_S1x40_1 x3) (ix2 r c) = x3 (ix1 c) := by
  refine (broadcastInDim_apply _ bcast_S1x40_S100000x40_0_1 _ (ix2 r c) (ix2 (0 : Fin 1) c) (fun a => ?_)).trans ?_
  · match a with
    | ⟨0, _⟩ => show 0 = if (1 : Nat) = 1 then 0 else r.val; rw [if_pos rfl]
    | ⟨1, _⟩ => show c.val = if (40 : Nat) = 1 then 0 else c.val; rw [if_neg (by decide)]
  · refine broadcastInDim_apply _ bcast_S40_S1x40_1 x3 (ix2 (0 : Fin 1) c) (ix1 c) (fun a => ?_)
    match a with
    | ⟨0, _⟩ => show c.val = if (40 : Nat) = 1 then 0 else c.val; rw [if_neg (by decide)]

/-- A column broadcast along the rows: entry (r, c) is the column at r. -/
theorem col_apply {α : Type} (v : S100000x1.Idx → α) (r : Fin 100000) (c : Fin 40) :
    broadcastInDim S100000x40 ![0, 1] bcast_S100000x1_S100000x40_0_1 v (ix2 r c) = v (ix2 r (0 : Fin 1)) := by
  refine broadcastInDim_apply _ bcast_S100000x1_S100000x40_0_1 v (ix2 r c) (ix2 r (0 : Fin 1)) (fun a => ?_)
  match a with
  | ⟨0, _⟩ => show r.val = if (100000 : Nat) = 1 then 0 else r.val; rw [if_neg (by decide)]
  | ⟨1, _⟩ => show 0 = if (1 : Nat) = 1 then 0 else c.val; rw [if_pos rfl]

/-- A vector viewed as a column: entry (r, 0) is the vector at r. -/
theorem vcol_apply {α : Type} (v : S100000.Idx → α) (r : Fin 100000) :
    broadcastInDim S100000x1 ![0] bcast_S100000_S100000x1_0 v (ix2 r (0 : Fin 1)) = v (ix1 r) := by
  refine broadcastInDim_apply _ bcast_S100000_S100000x1_0 v (ix2 r (0 : Fin 1)) (ix1 r) (fun a => ?_)
  match a with
  | ⟨0, _⟩ => show r.val = if (100000 : Nat) = 1 then 0 else r.val; rw [if_neg (by decide)]

/-! ## The stages at an index -/

/-- The product with the transposed weights at (r, c): the sum over the features of h[r, k] · W[c, k]. -/
theorem prod_apply (h : FVec Ideal S100000x64 .f32) (x2 : FVec Ideal S40x64 .f32) (r : Fin 100000) (c : Fin 40) :
    Host.dotGeneral D none h (transpose S64x40 [1, 0] x2 transposes_S40x64_S64x40_1_0) (ix2 r c)
      = ∑ k : Fin 64, h (ix2 r k) * x2 (ix2 c k) := by
  simp only [Host.dotGeneral]
  rw [Ideal.dotGeneral_apply, ← Equiv.sum_comp (contrEquiv1 D 64 rfl rfl).symm]
  refine Finset.sum_congr rfl fun k _ => ?_
  have hk := contrEquiv1_symm_val D 64 rfl rfl k
  have el : D.lhsIdx (ix2 r c) ((contrEquiv1 D 64 rfl rfl).symm k) = ix2 r k := funext fun a => Fin.ext (by
    match a with
    | ⟨0, _⟩ => exact lhs0 _ _
    | ⟨1, _⟩ => exact (lhs1 _ _).trans hk)
  have er : D.rhsIdx (ix2 r c) ((contrEquiv1 D 64 rfl rfl).symm k) = ix2 k c := funext fun a => Fin.ext (by
    match a with
    | ⟨0, _⟩ => exact (rhs0 _ _).trans hk
    | ⟨1, _⟩ => exact rhs1 _ _)
  rw [el, er]
  refine congrArg (h (ix2 r k) * ·) ?_
  exact transpose_apply [1, 0] x2 transposes_S40x64_S64x40_1_0 (ix2 k c) (ix2 c k) (fun b => match b with
    | ⟨0, _⟩ => rfl
    | ⟨1, _⟩ => rfl)

/-- The rectified logit at (r, c) is the specification's, of row r of the features. -/
theorem logitsR_apply (h : FVec Ideal S100000x64 .f32) (x2 : FVec Ideal S40x64 .f32) (x3 : FVec Ideal S40 .f32) (r : Fin 100000) (c : Fin 40) :
    logitsR (F := Ideal) h x2 x3 (ix2 r c) = RowSpec.logit (fun k => h (ix2 r k)) (fun c k => x2 (ix2 c k)) (fun c => x3 (ix1 c)) c := by
  unfold logitsR RowSpec.logit
  exact congrArg₂ max (congrArg₂ (· + ·) (prod_apply h x2 r c) (bias_apply x3 r c)) (splat_apply _ (ix2 r c))

/-- The host's row maximum from -∞. -/
theorem rowMaxR_apply (z : FVec Ideal S100000x40 .f32) (r : Fin 100000) :
    Host.reduce (FloatOps.maximumf (F := Ideal) (φ := .f32)) z (constant (F := Ideal) S_ .f32 0xFF800000#32) reducesTo_S100000x40_S100000_d1 h_S_ (ix1 r)
      = (Finset.univ : Finset (Fin 40)).fold max (Ideal.ofBits .f32 0xFF800000#32) (fun k => z (ix2 r k)) :=
  RowMax.hostReduce_rowMax_apply z _ reducesTo_S100000x40_S100000_d1 (by decide) h_S_ r

/-- The reference's row maximum as a vector: the maximum of -∞ and the reduce from -∞. -/
def rowMaxV (z : FVec Ideal S100000x40 .f32) : FVec Ideal S100000 .f32 :=
  maximumf (broadcastInDim S100000 ![] bcast_S_S100000 (constant (F := Ideal) S_ .f32 0xFF800000#32))
    (Host.reduce (FloatOps.maximumf (F := Ideal) (φ := .f32)) z (constant (F := Ideal) S_ .f32 0xFF800000#32) reducesTo_S100000x40_S100000_d1 h_S_)

/-- The shifted array is the array minus that vector, as a column, along the rows. -/
theorem shiftR_eq (z : FVec Ideal S100000x40 .f32) :
    shiftR (F := Ideal) z = subf z (broadcastInDim S100000x40 ![0, 1] bcast_S100000x1_S100000x40_0_1
      (broadcastInDim S100000x1 ![0] bcast_S100000_S100000x1_0 (rowMaxV z))) := rfl

/-- At row r it is the fold of `max` from -∞ over the row: the maximum with -∞ taken once more drops out. -/
theorem rowMaxV_apply (z : FVec Ideal S100000x40 .f32) (r : Fin 100000) :
    rowMaxV z (ix1 r) = (Finset.univ : Finset (Fin 40)).fold max (Ideal.ofBits .f32 0xFF800000#32) (fun k => z (ix2 r k)) := by
  have hA := splat1_apply (constant (F := Ideal) S_ .f32 0xFF800000#32) (ix1 r)
  have hB := rowMaxR_apply z r
  unfold rowMaxV
  rw [maximumf_apply, hA, hB]
  exact RowSpec.max_negInf_left _

/-- The shifted row. -/
theorem shiftR_apply (z : FVec Ideal S100000x40 .f32) (r : Fin 100000) (c : Fin 40) :
    shiftR (F := Ideal) z (ix2 r c)
      = z (ix2 r c) - (Finset.univ : Finset (Fin 40)).fold max (Ideal.ofBits .f32 0xFF800000#32) (fun k => z (ix2 r k)) := by
  rw [shiftR_eq, subf_apply, col_apply, vcol_apply, rowMaxV_apply]

/-- The host's logarithm and exponential act entry by entry. -/
theorem hostLog_apply {s : Shape} (v : FVec Ideal s .f32) (i : s.Idx) : Host.log v i = Ideal.log (v i) := rfl
theorem hostExp_apply {s : Shape} (v : FVec Ideal s .f32) (i : s.Idx) : Host.exp v i = Ideal.exp (v i) := rfl

/-- The host's row sum from zero. -/
theorem rowSumR_apply (y : FVec Ideal S100000x40 .f32) (r : Fin 100000) :
    Host.reduceAdd y (constant (F := Ideal) S_ .f32 0x00000000#32) reducesTo_S100000x40_S100000_d1 h_S_ (ix1 r)
      = ∑ k : Fin 40, y (ix2 r k) := by
  rw [hostReduceAdd_apply, Ideal.hostReduceAdd_single reducesTo_S100000x40_S100000_d1 (by decide)]
  show Ideal.ofBits .f32 0x00000000#32 + _ = _
  rw [Ideal.ofBits_zero_f32, zero_add]
  exact Finset.sum_congr rfl fun k _ => congrArg y (RowMax.lift_row _ r k)

/-- The logarithm of each row's sum of exponentials, as a column. -/
def lseV (s : FVec Ideal S100000x40 .f32) : FVec Ideal S100000x1 .f32 :=
  Host.log (broadcastInDim S100000x1 ![0] bcast_S100000_S100000x1_0
    (Host.reduceAdd (Host.exp s) (constant (F := Ideal) S_ .f32 0x00000000#32) reducesTo_S100000x40_S100000_d1 h_S_))

theorem outR_eq (s : FVec Ideal S100000x40 .f32) :
    outR (F := Ideal) s = subf s (broadcastInDim S100000x40 ![0, 1] bcast_S100000x1_S100000x40_0_1 (lseV s)) := rfl

theorem lseV_apply (s : FVec Ideal S100000x40 .f32) (r : Fin 100000) :
    lseV s (ix2 r (0 : Fin 1)) = Ideal.log (∑ k : Fin 40, Ideal.exp (s (ix2 r k))) := by
  unfold lseV
  rw [hostLog_apply, vcol_apply, rowSumR_apply]
  rfl

/-- The row with the logarithm of its sum of exponentials subtracted. -/
theorem outR_apply (s : FVec Ideal S100000x40 .f32) (r : Fin 100000) (c : Fin 40) :
    outR (F := Ideal) s (ix2 r c) = s (ix2 r c) - Ideal.log (∑ k : Fin 40, Ideal.exp (s (ix2 r k))) := by
  rw [outR_eq, subf_apply, col_apply, lseV_apply]

/-- THE TAIL IS THE SPECIFICATION: for any features `h`, weights and bias, the reference's last operations give `G`. -/
theorem tail_eq (h : FVec Ideal S100000x64 .f32) (x2 : FVec Ideal S40x64 .f32) (x3 : FVec Ideal S40 .f32) :
    outR (F := Ideal) (shiftR (F := Ideal) (logitsR (F := Ideal) h x2 x3)) = RowSpec.G h x2 x3 := by
  funext i
  obtain ⟨r, c, rfl⟩ : ∃ (r : Fin 100000) (c : Fin 40), i = ix2 r c := ⟨i 0, i 1, eq_ix2 i⟩
  rw [outR_apply, RowSpec.G_apply]
  simp only [shiftR_apply, logitsR_apply]
  rfl

end Cert.RefTail

end
-- ==== Proof.LibKeepdims.lean ====
/-
  Column ("keepdims") forms read at an index, over any extents: a vector of length `a` viewed as an `[a, 1]` column, a
  column broadcast along the rows of an `[a, b]` array, and, over the extended reals, the sum of an `[a, b]` array
  along its rows (one value per row) and the sum of an `[a, 1]` column along its one column (one value).
-/
import Idealize.ShloMosaic.Lib.Pipeline.Value
import Idealize.ShloMosaic.Lib.ValueIdx
import Idealize.ShloMosaic.PureOps.Ideal.Laws

noncomputable section

namespace Cert.Keepdims

open Idealize.ShloMosaic Idealize.ShloMosaic.ValueIdx

variable {α : Type}

/-- A length-`a` vector viewed as an `[a, 1]` column reads, at `(r, 0)`, the vector at `r`: the two row-major positions
    agree. -/
theorem shapeCast_a_a1_apply {a : ℕ} (x : (⟨1, ![a]⟩ : Shape).Idx → α)
    (h : (⟨1, ![a]⟩ : Shape).ShapeCasts ⟨2, ![a, 1]⟩) (r : Fin a) (q : Fin 1) :
    shapeCast ⟨2, ![a, 1]⟩ x h (ix2 r q) = x (ix1 r) := by
  refine shapeCast_apply x h (ix2 r q) (ix1 r) ?_
  rw [Shape.rowMajor_val_one, Shape.rowMajor_val_two]
  show r.val = r.val * 1 + q.val
  have := q.isLt
  omega

/-- An `[a, 1]` column broadcast to `[a, b]` reads, at `(r, c)`, the column at row `r`. -/
theorem broadcastTo_a1_ab_apply {a b : ℕ} (v : (⟨2, ![a, 1]⟩ : Shape).Idx → α)
    (h : (⟨2, ![a, 1]⟩ : Shape).Broadcasts ⟨2, ![a, b]⟩) (r : Fin a) (c : Fin b) :
    broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- Over the extended reals the sum of an `[a, b]` array along axis 1 is, at row `r`, the sum of that row's `b` entries. -/
theorem rowSum_apply {a b : ℕ} (v : FVec Ideal ⟨2, ![a, b]⟩ .f32) (h : (⟨2, ![a, b]⟩ : Shape).Reduces [1] ⟨1, ![a]⟩)
    (hφ : FKind.Formats .f32) (hacc : (0x00000000#32 : BitVec 32) = 0x00000000#32) (r : Fin a) :
    multiReduction .add [1] ⟨1, ![a]⟩ v 0x00000000#32 h hφ hacc (ix1 r) = ∑ k : Fin b, v (ix2 r k) := by
  refine (Ideal.reduceAdd_single h v (ix1 r)).trans ?_
  refine Finset.sum_congr rfl fun k _ => congrArg v ?_
  funext c
  apply Fin.ext
  match c with
  | ⟨0, _⟩ => rfl
  | ⟨1, _⟩ => rfl

/-- Over the extended reals the sum of an `[a, 1]` column along axis 0 is the sum of its `a` entries. -/
theorem colSum_apply {a : ℕ} (w : FVec Ideal ⟨2, ![a, 1]⟩ .f32) (h : (⟨2, ![a, 1]⟩ : Shape).Reduces [0] ⟨1, ![1]⟩)
    (hφ : FKind.Formats .f32) (hacc : (0x00000000#32 : BitVec 32) = 0x00000000#32) (q : Fin 1) :
    multiReduction .add [0] ⟨1, ![1]⟩ w 0x00000000#32 h hφ hacc (ix1 q) = ∑ r : Fin a, w (ix2 r q) := by
  refine (Ideal.reduceAdd_single h w (ix1 q)).trans ?_
  refine Finset.sum_congr rfl fun k _ => congrArg w ?_
  funext c
  apply Fin.ext
  match c with
  | ⟨0, _⟩ => rfl
  | ⟨1, _⟩ => rfl

end Cert.Keepdims

end
-- ==== Proof.KernelRow.lean ====
/-
  The kernel body's stored value, read at an index of its block.

  At a grid point the body loads a 10000 × 64 block `x0` of propagated features, the whole 40 × 64 weight matrix `x3` and the
  bias `x6`, and stores one 10000 × 40 value. Over the extended reals the narrowing of the operands before the product is the
  identity, the product into a zero accumulator is the plain sum over the 64 features, and the two lane reductions are the
  row's maximum (folded from -∞) and the row's sum. So the stored value at (p, c) is the row function of the specification
  applied to row p of the block: every entry of an output row depends on that row of the block only.
-/
import proofs.«128079_j66228395705231_1_alg».proof.Proof.Gen.KernelIdeal.Skeleton
import proofs.«128079_j66228395705231_1_alg».proof.Proof.RowSpec
import proofs.«128079_j66228395705231_1_alg».proof.Proof.LibKeepdims
import proofs.«128079_j66228395705231_1_alg».proof.Proof.LibRowMax
import Idealize.ShloMosaic.Lib.ValueLayout
import Idealize.ShloMosaic.Lib.Pipeline.Value

noncomputable section

namespace Cert.KernelRow

open Cert.KernelIdeal Cert.KernelIdeal.Gen Idealize.ShloMosaic Idealize.ShloMosaic.ValueIdx

/-- The body's matrix product: features × weightsᵀ, both contracted along their axis 1. -/
abbrev D := dot_S10000x64_S40x64_S10000x40_1_1_0_0_n_n

/-! ## The body's value in stages -/

/-- The block of rectified logits `max (x0 · x3ᵀ + x6) 0`. -/
def zblk (x0 : Vec Ideal S10000x64 .f32) (x3 : Vec Ideal S40x64 .f32) (x6 : Vec Ideal S40 .f32) : FVec Ideal S10000x40 .f32 :=
  maximumf (addf (matmul D none
        (truncf .bf16 (shapeCast S10000x64 x0 shapeCasts_S10000x64_S10000x64) bitsLt_bf16_f32)
        (truncf .bf16 x3 bitsLt_bf16_f32) (constant (F := Ideal) S10000x40 .f32 0x00000000#32))
      (broadcastTo S10000x40 (shapeCast S1x40 x6 shapeCasts_S40_S1x40) broadcasts_S1x40_S10000x40))
    (broadcast S10000x40 (Scalar.ofBits (F := Ideal) .f32 0x00000000#32))

/-- The maximum of each row of a block, from -∞. -/
def rmax (z : FVec Ideal S10000x40 .f32) : FVec Ideal S10000 .f32 :=
  multiReduction (F := Ideal) .maximumf [1] S10000 z 0xFF800000#32 reduces_S10000x40_S10000 (.inl rfl) rfl

/-- Each row with its maximum subtracted. -/
def shiftv (z : FVec Ideal S10000x40 .f32) : FVec Ideal S10000x40 .f32 :=
  subf z (broadcastTo S10000x40 (shapeCast S10000x1 (rmax z) shapeCasts_S10000_S10000x1) broadcasts_S10000x1_S10000x40)

/-- The logarithm of each row's sum of exponentials, as a column. -/
def lsev (s : FVec Ideal S10000x40 .f32) : FVec Ideal S10000x1 .f32 :=
  log (shapeCast S10000x1 (multiReduction (F := Ideal) .add [1] S10000 (exp s) 0x00000000#32 reduces_S10000x40_S10000 (.inl rfl) rfl)
    shapeCasts_S10000_S10000x1)

/-- Each row with that logarithm subtracted. -/
def outv (s : FVec Ideal S10000x40 .f32) : FVec Ideal S10000x40 .f32 :=
  subf s (broadcastTo S10000x40 (lsev s) broadcasts_S10000x1_S10000x40)

/-- The body's one stored value is these stages composed. -/
theorem pay_eq (x0 : Vec Ideal S10000x64 .f32) (x3 : Vec Ideal S40x64 .f32) (x6 : Vec Ideal S40 .f32) :
    k0_pay1 (F := Ideal) x0 x3 x6 = outv (shiftv (zblk x0 x3 x6)) := rfl

/-! ## The product's operand indices -/

theorem lhs0 (i : S10000x40.Idx) (q : D.contr.Idx) : (D.lhsIdx i q 0).val = (i 0).val := by
  unfold DotDims.lhsIdx
  rw [dif_neg (show ¬(0 : Fin S10000x64.rank) ∈ D.lhsBatch by decide), dif_pos (show (0 : Fin S10000x64.rank) ∈ D.lhsNonContracting by decide)]
  rfl

theorem lhs1 (i : S10000x40.Idx) (q : D.contr.Idx) : (D.lhsIdx i q 1).val = (q ⟨0, by decide⟩).val :=
  D.lhsIdx_val_of_single rfl i q

theorem rhs0 (i : S10000x40.Idx) (q : D.contr.Idx) : (D.rhsIdx i q 0).val = (i 1).val := by
  unfold DotDims.rhsIdx
  rw [dif_neg (show ¬(0 : Fin S40x64.rank) ∈ D.rhsBatch by decide), dif_pos (show (0 : Fin S40x64.rank) ∈ D.rhsNonContracting by decide)]
  rfl

theorem rhs1 (i : S10000x40.Idx) (q : D.contr.Idx) : (D.rhsIdx i q 1).val = (q ⟨0, by decide⟩).val :=
  D.rhsIdx_val_of_single rfl i q

/-! ## Each stage at an index -/

/-- The block product at (p, c): the sum over the 64 features of row p of the block times row c of the weights. -/
theorem prod_apply (x0 : Vec Ideal S10000x64 .f32) (x3 : Vec Ideal S40x64 .f32) (p : Fin 10000) (c : Fin 40) :
    matmul D none (truncf .bf16 (shapeCast S10000x64 x0 shapeCasts_S10000x64_S10000x64) bitsLt_bf16_f32)
        (truncf .bf16 x3 bitsLt_bf16_f32) (constant (F := Ideal) S10000x40 .f32 0x00000000#32) (ix2 p c)
      = ∑ k : Fin 64, x0 (ix2 p k) * x3 (ix2 c k) := by
  rw [shapeCast_self]
  simp only [matmul]
  rw [Ideal.matmul_constant_zero_apply, ← Equiv.sum_comp (contrEquiv1 D 64 rfl rfl).symm]
  refine Finset.sum_congr rfl fun k _ => ?_
  have hk := contrEquiv1_symm_val D 64 rfl rfl k
  have el : D.lhsIdx (ix2 p c) ((contrEquiv1 D 64 rfl rfl).symm k) = ix2 p k := funext fun a => Fin.ext (by
    match a with
    | ⟨0, _⟩ => exact lhs0 _ _
    | ⟨1, _⟩ => exact (lhs1 _ _).trans hk)
  have er : D.rhsIdx (ix2 p c) ((contrEquiv1 D 64 rfl rfl).symm k) = ix2 c k := funext fun a => Fin.ext (by
    match a with
    | ⟨0, _⟩ => exact rhs0 _ _
    | ⟨1, _⟩ => exact (rhs1 _ _).trans hk)
  rw [el, er]
  rfl

/-- The rectified logit at (p, c) is the specification's, of row p of the block. -/
theorem zblk_apply (x0 : Vec Ideal S10000x64 .f32) (x3 : Vec Ideal S40x64 .f32) (x6 : Vec Ideal S40 .f32) (p : Fin 10000) (c : Fin 40) :
    zblk x0 x3 x6 (ix2 p c) = RowSpec.logit (fun k => x0 (ix2 p k)) (fun c k => x3 (ix2 c k)) (fun c => x6 (ix1 c)) c := by
  unfold zblk RowSpec.logit
  refine congrArg₂ max (congrArg₂ (· + ·) (prod_apply x0 x3 p c) ?_) rfl
  exact (broadcastTo_1b_ab_apply _ broadcasts_S1x40_S10000x40 p c).trans (shapeCast_a_1a_apply x6 shapeCasts_S40_S1x40 0 c)

/-- A row's maximum: the fold of `max` from -∞ over the row's forty entries. -/
theorem rmax_apply (z : FVec Ideal S10000x40 .f32) (p : Fin 10000) :
    rmax z (ix1 p) = (Finset.univ : Finset (Fin 40)).fold max (Ideal.ofBits .f32 0xFF800000#32) (fun k => z (ix2 p k)) :=
  RowMax.multiReduction_rowMax_apply z reduces_S10000x40_S10000 (.inl rfl) rfl p

theorem shiftv_apply (z : FVec Ideal S10000x40 .f32) (p : Fin 10000) (c : Fin 40) :
    shiftv z (ix2 p c) = z (ix2 p c) - rmax z (ix1 p) := by
  show z (ix2 p c) - broadcastTo S10000x40 (shapeCast S10000x1 (rmax z) shapeCasts_S10000_S10000x1) broadcasts_S10000x1_S10000x40 (ix2 p c) = _
  exact congrArg (z (ix2 p c) - ·) ((Keepdims.broadcastTo_a1_ab_apply _ broadcasts_S10000x1_S10000x40 p c).trans
    (Keepdims.shapeCast_a_a1_apply (rmax z) shapeCasts_S10000_S10000x1 p 0))

theorem lsev_apply (s : FVec Ideal S10000x40 .f32) (p : Fin 10000) :
    lsev s (ix2 p (0 : Fin 1)) = Ideal.log (∑ k : Fin 40, Ideal.exp (s (ix2 p k))) := by
  show Ideal.log (shapeCast S10000x1 (multiReduction (F := Ideal) .add [1] S10000 (exp s) 0x00000000#32 reduces_S10000x40_S10000 (.inl rfl) rfl)
    shapeCasts_S10000_S10000x1 (ix2 p (0 : Fin 1))) = _
  refine congrArg Ideal.log ?_
  refine (Keepdims.shapeCast_a_a1_apply _ shapeCasts_S10000_S10000x1 p 0).trans ?_
  exact Keepdims.rowSum_apply (exp s) reduces_S10000x40_S10000 (.inl rfl) rfl p

theorem outv_apply (s : FVec Ideal S10000x40 .f32) (p : Fin 10000) (c : Fin 40) :
    outv s (ix2 p c) = s (ix2 p c) - lsev s (ix2 p (0 : Fin 1)) := by
  show s (ix2 p c) - broadcastTo S10000x40 (lsev s) broadcasts_S10000x1_S10000x40 (ix2 p c) = _
  exact congrArg (s (ix2 p c) - ·) (Keepdims.broadcastTo_a1_ab_apply _ broadcasts_S10000x1_S10000x40 p c)

/-- THE PAYLOAD AT AN INDEX: entry (p, c) of the stored value is the specification's row function of row p of the
    feature block, the weights and the bias, at class c. -/
theorem pay_apply (x0 : Vec Ideal S10000x64 .f32) (x3 : Vec Ideal S40x64 .f32) (x6 : Vec Ideal S40 .f32) (p : Fin 10000) (c : Fin 40) :
    k0_pay1 (F := Ideal) x0 x3 x6 (ix2 p c)
      = RowSpec.rowOut (fun k => x0 (ix2 p k)) (fun c k => x3 (ix2 c k)) (fun c => x6 (ix1 c)) c := by
  rw [pay_eq, outv_apply, lsev_apply]
  simp only [shiftv_apply, rmax_apply, zblk_apply]
  rfl

end Cert.KernelRow

end
-- ==== Proof.KernelValue.lean ====
/-
  The kernel's result array after the run, as one function of the arrays the region finds.

  The grid has ten points; point t stages rows [10000·t, 10000·t + 10000) of the propagated features, the whole weight
  matrix and the whole bias, and writes back rows [10000·t, 10000·t + 10000) of the result. An output row depends only on
  the same row of the features (the row function of the specification), so what point t writes back is block t of the
  whole-array function `RowSpec.G`; the ten blocks tile the 100000 rows, so the array ends holding `G`.
-/
import proofs.«128079_j66228395705231_1_alg».proof.Proof.Gen.KernelIdeal.Value
import proofs.«128079_j66228395705231_1_alg».proof.Proof.KernelRow

noncomputable section

namespace Cert.KernelValue

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- The index maps over the ten grid points: the feature block and the result block are block t along the rows and the
    only block along the columns; the weights and the bias are always their only block. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = t.val ∧ win0_3.index t (1 : Fin 2) = 0 :=
  (by decide +kernel : ∀ t : Fin grid0.N, _)

/-- Every one of the ten row blocks of the result is some point's. -/
theorem idx_onto : ∀ q : Fin 10, ∃ t : Fin cfg0.N, win0_3.index t (0 : Fin 2) = q.val ∧ win0_3.index t (1 : Fin 2) = 0 :=
  (by decide +kernel : ∀ q : Fin 10, ∃ t : Fin grid0.N, win0_3.index t (0 : Fin 2) = q.val ∧ win0_3.index t (1 : Fin 2) = 0)

/-! ## A block read where the output's rectangle says

  Stated over ANY array `A` of the window's type: a block is the array read through the point's rectangle, so entry y of
  the block is the array at (block index) × (block size) + y on every axis. -/

/-- Row p of point t's feature block is row 10000·t + p of the array. -/
theorem read_feat (t : Fin cfg0.N) (A : ((cfg0.win 0).blk t).view.ty.Contents (Elt Ideal)) (p : Fin 10000) (k : Fin 64)
    (r : Fin 100000) (hr : r.val = t.val * 10000 + p.val) :
    ((cfg0.win 0).blk t).view.read (Elt Ideal) A (ix2 p k) = A (ix2 r k) := by
  rw [View.read_apply]
  have e : ((cfg0.win 0).blk t).view.emb (ix2 p k) = ix2 r k := by
    obtain ⟨e0, e1, -⟩ := idx_facts t
    funext a; apply Fin.ext
    match a with
    | ⟨0, _⟩ => show win0_0.index t (0 : Fin 2) * 10000 + 1 * p.val = r.val; omega
    | ⟨1, _⟩ => show win0_0.index t (1 : Fin 2) * 64 + 1 * k.val = k.val; omega
  rw [e]
  rfl

/-- The weight block at any point is the whole weight matrix. -/
theorem read_w (t : Fin cfg0.N) (A : ((cfg0.win 1).blk t).view.ty.Contents (Elt Ideal)) (j : Fin 40) (k : Fin 64) :
    ((cfg0.win 1).blk t).view.read (Elt Ideal) A (ix2 j k) = A (ix2 j k) := by
  rw [View.read_apply]
  have e : ((cfg0.win 1).blk t).view.emb (ix2 j k) = ix2 j k := by
    obtain ⟨-, -, e2, e3, -⟩ := idx_facts t
    funext a; apply Fin.ext
    match a with
    | ⟨0, _⟩ => show win0_1.index t (0 : Fin 2) * 40 + 1 * j.val = j.val; omega
    | ⟨1, _⟩ => show win0_1.index t (1 : Fin 2) * 64 + 1 * k.val = k.val; omega
  rw [e]
  rfl

/-- The bias block at any point is the whole bias. -/
theorem read_b (t : Fin cfg0.N) (A : ((cfg0.win 2).blk t).view.ty.Contents (Elt Ideal)) (j : Fin 40) :
    ((cfg0.win 2).blk t).view.read (Elt Ideal) A (ix1 j) = A (ix1 j) := by
  rw [View.read_apply]
  have e : ((cfg0.win 2).blk t).view.emb (ix1 j) = ix1 j := by
    obtain ⟨-, -, -, -, e4, -⟩ := idx_facts t
    funext a; apply Fin.ext
    match a with
    | ⟨0, _⟩ => show win0_2.index t (0 : Fin 1) * 40 + 1 * j.val = j.val; omega
  rw [e]
  rfl

/-! ## One entry of what a point stores -/

/-- Over any arrays `H`, `W`, `b` and blocks that read them as above: entry (p, q) of the stored value is entry (r, q) of
    `G H W b`, r the row of the array that row p of the block is. -/
theorem point (H : (⟨2, ![100000, 64]⟩ : Shape).Idx → EReal) (W : (⟨2, ![40, 64]⟩ : Shape).Idx → EReal)
    (b : (⟨1, ![40]⟩ : Shape).Idx → EReal) (x0 : Vec Ideal S10000x64 .f32) (x3 : Vec Ideal S40x64 .f32) (x6 : Vec Ideal S40 .f32)
    (p : Fin 10000) (q : Fin 40) (r : Fin 100000)
    (h0 : ∀ k : Fin 64, x0 (ix2 p k) = H (ix2 r k)) (h3 : ∀ (j : Fin 40) (k : Fin 64), x3 (ix2 j k) = W (ix2 j k))
    (h6 : ∀ j : Fin 40, x6 (ix1 j) = b (ix1 j)) :
    k0_pay1 (F := Ideal) x0 x3 x6 (ix2 p q) = RowSpec.G H W b (ix2 r q) := by
  rw [KernelRow.pay_apply, RowSpec.G_apply]
  simp only [h0, h3, h6]

/-! ## What a point writes back, the cover, the array -/

/-- ONE ENTRY OF A POINT'S BLOCK, over literal index types: entry y of what the body leaves at point t (from blocks that
    read arrays `A0`, `A1`, `A2`) is entry i of `G A0 A1 A2`, whenever i is y moved down by 10000·t rows. -/
theorem entry (t : Fin cfg0.N) (A0 : ((cfg0.win 0).blk t).view.ty.Contents (Elt Ideal))
    (A1 : ((cfg0.win 1).blk t).view.ty.Contents (Elt Ideal)) (A2 : ((cfg0.win 2).blk t).view.ty.Contents (Elt Ideal))
    (y : S10000x40.Idx) (i : S100000x40.Idx) (h0 : (i 0).val = t.val * 10000 + (y 0).val) (h1 : (i 1).val = (y 1).val) :
    out0_3 (F := Ideal) (((cfg0.win 0).blk t).view.read (Elt Ideal) A0) (((cfg0.win 1).blk t).view.read (Elt Ideal) A1)
        (((cfg0.win 2).blk t).view.read (Elt Ideal) A2) y
      = RowSpec.G A0 A1 A2 i := by
  unfold out0_3
  rw [View.canon_unit_zero zero2]
  simp only [View.ld_unit_zero (S := S10000x64) zero2, View.ld_unit_zero (S := S40x64) zero2, View.ld_unit_zero (S := S40) zero1]
  obtain ⟨p, q, rfl⟩ : ∃ (p : Fin 10000) (q : Fin 40), y = ix2 p q := ⟨y 0, y 1, eq_ix2 y⟩
  obtain ⟨r, q', rfl⟩ : ∃ (r : Fin 100000) (q' : Fin 40), i = ix2 r q' := ⟨i 0, i 1, eq_ix2 i⟩
  have hq : q' = q := Fin.ext h1
  subst hq
  exact point A0 A1 A2 (((cfg0.win 0).blk t).view.read (Elt Ideal) A0) (((cfg0.win 1).blk t).view.read (Elt Ideal) A1)
    (((cfg0.win 2).blk t).view.read (Elt Ideal) A2) p q' r
    (fun k => read_feat t A0 p k r h0) (fun j k => read_w t A1 j k) (fun j => read_b t A2 j)

/-- WHAT POINT t WRITES BACK is block t of `G` of the three arrays as the region finds them. -/
theorem flushed_eq (c : Dev nD) (t : Fin cfg0.N) :
    (dats m 0 c).flushed 3 t
      = ((cfg0.win 3).blk t).view.read (Elt Ideal)
          (RowSpec.G (V m c (Pipeline.arrRef spec0 0)) (V m c (Pipeline.arrRef spec0 1)) (V m c (Pipeline.arrRef spec0 2))) := by
  rw [Cert.KernelIdeal.Value.flushed3]
  unfold iblk
  -- from here on the three arrays, the stored block and the target array are opaque variables (the target array typed as
  -- the window's own array, so that reading it through the block needs no change of type): the index bookkeeping below
  -- looks inside none of them
  generalize V m c (Pipeline.arrRef spec0 0) = A0
  generalize V m c (Pipeline.arrRef spec0 1) = A1
  generalize V m c (Pipeline.arrRef spec0 2) = A2
  generalize hO : out0_3 (F := Ideal) _ _ _ = O
  obtain ⟨G', hG⟩ : ∃ G' : ((cfg0.win 3).blk t).view.ty.Contents (Elt Ideal), G' = RowSpec.G A0 A1 A2 := ⟨_, rfl⟩
  rw [← hG]
  funext j
  rw [View.read_apply]
  show O _ = G' _
  rw [← hO, hG]
  obtain ⟨-, -, -, -, -, e5, e6⟩ := idx_facts t
  refine entry t A0 A1 A2 _ _ ?_ ?_
  · show win0_3.index t (0 : Fin 2) * 10000 + 1 * (j 0).val = t.val * 10000 + (j 0).val
    omega
  · show win0_3.index t (1 : Fin 2) * 40 + 1 * (j 1).val = (j 1).val
    omega

/-- An index of the result array is in point t's block iff each coordinate is in the block's range on its axis. -/
theorem mem_blk (t : Fin cfg0.N) (i : S100000x40.Idx) :
    i ∈ ((cfg0.win 3).blk t).view.set ↔ ∀ a : Fin 2, win0_3.index t a * S10000x40.size a ≤ (i a).val
      ∧ (i a).val < win0_3.index t a * S10000x40.size a + S10000x40.size a := by
  show i ∈ ((View.whole main_v70).slice (win0_3.rect t)).set ↔ _
  rw [View.set_slice_whole, Rect.mem_set_unit]
  exact Iff.rfl

/-- The ten blocks tile the array: row i₀ is in the block of point i₀ / 10000. -/
theorem cover (i : S100000x40.Idx) : ∃ t : Fin cfg0.N, (cfg0.win 3).flush t = true ∧ i ∈ ((cfg0.win 3).blk t).view.set := by
  have hi0 : (i 0).val < 100000 := (i 0).isLt
  have hi1 : (i 1).val < 40 := (i 1).isLt
  obtain ⟨t, q0, q1⟩ := idx_onto ⟨(i 0).val / 10000, by omega⟩
  have q0' : win0_3.index t (0 : Fin 2) = (i 0).val / 10000 := q0
  refine ⟨t, flush0_3 t, ?_⟩
  rw [mem_blk]
  intro a
  match a with
  | ⟨0, _⟩ => show win0_3.index t (0 : Fin 2) * 10000 ≤ (i 0).val ∧ (i 0).val < win0_3.index t (0 : Fin 2) * 10000 + 10000; omega
  | ⟨1, _⟩ => show win0_3.index t (1 : Fin 2) * 40 ≤ (i 1).val ∧ (i 1).val < win0_3.index t (1 : Fin 2) * 40 + 40; omega

/-- THE ARRAY after the run is `G` of the arrays as the region finds them. -/
theorem final (c : Dev nD) :
    (dats m 0 c).arrAt 3 cfg0.N
      = RowSpec.G (V m c (Pipeline.arrRef spec0 0)) (V m c (Pipeline.arrRef spec0 1)) (V m c (Pipeline.arrRef spec0 2)) :=
  (dats m 0 c).arrAt_eq_of_cover 3 _ (fun t _ => flushed_eq m c t) cover

/-- The kernel's run with its result array named: `G` of the propagated features (as the region finds them: the value the
    host operations before the region leave, the feature window's array) and of the weight and bias arguments; the arguments unchanged. -/
theorem run : θ_run defs (onTc (τ := τ) (main (F := Ideal))) ⟨m, fun _ => 0, ρ⟩ fun r => ∀ c : Dev nD,
      r.2.mem ((c : Thread nD τ).loc main_v70)
        = RowSpec.G (V m c (Pipeline.arrRef spec0 0)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((final m c).trans (by
      have e1 : V m c (Pipeline.arrRef spec0 1) = m ((c : Thread nD τ).loc main_arg2) := V_main_arg2 m c
      have e2 : V m c (Pipeline.arrRef spec0 2) = m ((c : Thread nD τ).loc main_arg3) := V_main_arg3 m c
      rw [e1, e2])), (h c).2⟩)
    (Cert.KernelIdeal.Value.run_blocks m ρ)

end Cert.KernelValue

end
-- ==== Proof.Prefix.lean ====
/-
  What the kernel's program leaves for the region to read: the propagated features.

  Before its one region the kernel's @main runs the same host operations, in the same order, as the reference does before
  its product: the edge list with self loops, the degrees and their inverse square roots, the edge weights, and three
  propagation steps. The region's first operand is therefore the reference's `prop` of the feature and edge-index arguments:
  the two programs print that chain with the same operations, dimension records and constants, so the two composed terms
  are one term.
-/
import proofs.«128079_j66228395705231_1_alg».proof.Proof.Gen.KernelIdeal.Frame
import proofs.«128079_j66228395705231_1_alg».proof.Proof.RefOps
import proofs.«128079_j66228395705231_1_alg».proof.Proof.LibTRef

noncomputable section

namespace Cert.Prefix

open Cert.KernelIdeal Cert.KernelIdeal.Gen Idealize.ShloMosaic Idealize.ShloMosaic.TcCoe Idealize.SL.Sem Idealize.ShloMosaic.StableHlo

variable {F : FTy → Type} [FloatOps F]

set_option maxRecDepth 16384 in
set_option maxHeartbeats 44800000 in
/-- The array the region's feature window reads is three propagation steps of the feature argument along the edge-index
    argument. -/
theorem feat_eq (m : (ℓ : Loc nD τ sig) → Buf (Elt F) ℓ) (c : Dev nD) :
    V m c main_v69 = Cert.RefRun.prop (F := F) (m ((c : Thread nD τ).loc main_arg0)) (m ((c : Thread nD τ).loc main_arg1)) := by
  dsimp only [V]
  simp only [hostOps0, hostOps0_1, hostOps0_2, List.flatten_cons, List.flatten_nil, List.append_nil, List.cons_append,
    List.nil_append]
  after_results_simp
  -- the two concatenations' operands (a row of the edge index, reshaped, and the node numbers) are the values of the first
  -- six operations: evaluate those one operation at a time
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  -- values pass through the called function's buffers unchanged
  try simp only [Cert.TRefLemmas.ofBuf_toBuf]
  unfold Cert.RefRun.prop Cert.RefRun.hop Cert.RefRun.nrm Cert.RefRun.dinv Cert.RefRun.deg Cert.RefRun.ones Cert.RefRun.wrap
    Cert.RefRun.srcIdx Cert.RefRun.dstIdx
  rfl

end Cert.Prefix

end
-- ==== Proof.lean ====
/-
  The kernel against its reference, over the extended reals.

  Both programs first propagate the node features three times along the edges (with self loops, each edge weighted by the
  inverse square roots of its end points' degrees): the same host operations in the same order, so one value `h`. The
  reference then computes log_softmax (max (h · Wᵀ + b) 0) along the classes; the kernel computes the same on ten blocks of
  10000 rows, one grid point each. Every output row depends on the same row of `h` only, through one row function
  (Proof/RowSpec.lean): the kernel's stored block at a point is that function of the block's rows (Proof/KernelRow.lean), the
  ten blocks tile the rows (Proof/KernelValue.lean), and the reference's last operations are that function of every row
  (Proof/RefTail.lean, over the reference's run, Proof/RefRun.lean). The propagated features the kernel's region reads are
  the reference's (Proof/Prefix.lean). Nothing is rearranged — the sums and the maximum run over the same entries on both
  sides, and the maximum with -∞ taken once more by the reference changes nothing — so the precondition is not used.

  The three frames: the kernel's two are the generated frame certificates; the reference's is its run with the result
  dropped. The idealization rewrote no operation, so `preserves` is `True`.
-/
import proofs.«128079_j66228395705231_1_alg».proof.Defs
import proofs.«128079_j66228395705231_1_alg».proof.Proof.Gen.Kernel
import proofs.«128079_j66228395705231_1_alg».proof.Proof.Gen.Kernel.Frame
import proofs.«128079_j66228395705231_1_alg».proof.Proof.Gen.KernelIdeal
import proofs.«128079_j66228395705231_1_alg».proof.Proof.Gen.KernelIdeal.Frame
import proofs.«128079_j66228395705231_1_alg».proof.Proof.Gen.KernelIdeal.Value
import proofs.«128079_j66228395705231_1_alg».proof.Proof.Gen.ReferenceIdeal
import proofs.«128079_j66228395705231_1_alg».proof.Proof.Gen.Pre_finite_inputs
import proofs.«128079_j66228395705231_1_alg».proof.Proof.RefRun
import proofs.«128079_j66228395705231_1_alg».proof.Proof.RefTail
import proofs.«128079_j66228395705231_1_alg».proof.Proof.KernelValue
import proofs.«128079_j66228395705231_1_alg».proof.Proof.Prefix
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result forgotten. -/
theorem frame_ri : Cert.frame_ReferenceIdeal := fun m ρ _ =>
  (θ_run Cert.ReferenceIdeal.defs _ _).mono (fun _ h c => (h c).2) (Cert.RefRun.run (F := Ideal) m ρ)

theorem preserves : Cert.preserves_Kernel_KernelIdeal := trivial

/-- Both runs end with the result array at the row function of every row of the propagated features. -/
theorem algebraic : Cert.algebraic_KernelIdeal_ReferenceIdeal := by
  intro m ρ m' ρ' _ hagree
  refine ⟨fun c => Cert.RowSpec.G
      (Cert.RefRun.prop (F := Ideal) (m ((c.tc : Thread Cert.KernelIdeal.nD Cert.KernelIdeal.τ).loc Cert.KernelIdeal.main_arg0))
        (m ((c.tc : Thread Cert.KernelIdeal.nD Cert.KernelIdeal.τ).loc Cert.KernelIdeal.main_arg1)))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)), ?_, ?_⟩
  · refine (θ_run Cert.KernelIdeal.defs _ _).mono (fun _ h c => ⟨(h c).1.trans ?_, (h c).2⟩) (Cert.KernelValue.run m ρ)
    have e0 : Cert.KernelIdeal.Gen.V m c (Pipeline.arrRef Cert.KernelIdeal.spec0 0)
        = Cert.RefRun.prop (F := Ideal) (m ((c.tc : Thread Cert.KernelIdeal.nD Cert.KernelIdeal.τ).loc Cert.KernelIdeal.main_arg0))
            (m ((c.tc : Thread Cert.KernelIdeal.nD Cert.KernelIdeal.τ).loc Cert.KernelIdeal.main_arg1)) :=
      Cert.Prefix.feat_eq m c
    rw [e0]
  · refine (θ_run Cert.ReferenceIdeal.defs _ _).mono (fun _ h c => ⟨(h c).1.trans ?_, (h c).2⟩)
      (Cert.RefRun.run (F := Ideal) m' ρ')
    rw [(hagree c).1, (hagree c).2.1, (hagree c).2.2.1, (hagree c).2.2.2]
    exact Cert.RefTail.tail_eq _ _ _

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
